-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S128x256 : Shape := ⟨2, ![128, 256]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x256 .f32) (main_arg5 : FVec F S128 .f32) (main_arg6 : FVec F S128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S10000x128 .f32) (main_arg2 : FVec F S128x256 .f32) (main_arg3 : FVec F S128 .f32) (main_arg4 : FVec F S128x256 .f32) (main_arg5 : FVec F S128 .f32) (main_arg6 : FVec F S128 .f32) (main_arg7 : FVec F S128 .f32) (main_arg8 : FVec F S128 .f32) (main_arg9 : FVec F S128 .f32) (main_arg10 : IVec S1600000 32) (main_arg11 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S10000x128 : Shape := ⟨2, ![10000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S10000 : Shape := ⟨1, ![10000]⟩
abbrev S10000x1 : Shape := ⟨2, ![10000, 1]⟩
abbrev S128x128 : Shape := ⟨2, ![128, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 78
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S10000x128, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S10000x128, .f32⟩
  | .hbm, ⟨49, _⟩ => ⟨S1600000x1, .i32⟩
  | .hbm, ⟨50, _⟩ => ⟨S10000x128, .f32⟩
  | .hbm, ⟨51, _⟩ => ⟨S_, .f32⟩
  | .hbm, ⟨52, _⟩ => ⟨S10000, .f32⟩
  | .hbm, ⟨53, _⟩ => ⟨S1600000x1, .i32⟩
  | .hbm, ⟨54, _⟩ => ⟨S10000, .f32⟩
  | .hbm, ⟨55, _⟩ => ⟨S_, .f32⟩
  | .hbm, ⟨56, _⟩ => ⟨S_, .f32⟩
  | .hbm, ⟨57, _⟩ => ⟨S10000, .f32⟩
  | .hbm, ⟨58, _⟩ => ⟨S10000, .f32⟩
  | .hbm, ⟨59, _⟩ => ⟨S10000x1, .f32⟩
  | .hbm, ⟨60, _⟩ => ⟨S10000x128, .f32⟩
  | .hbm, ⟨61, _⟩ => ⟨S10000x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S10000x128_S1600000x1_S1600000x128_1_0_0_1_wf : ScatterDims.WF S10000x128 S1600000x1 S1600000x128 [1] [0] [0] 1
  scatter_S10000_S1600000x1_S1600000_n_0_0_1_wf : ScatterDims.WF S10000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S10000x128.size a
  hwx1_7 : ∀ i : grid1.Coords, EltTy.bits .f32 = 32 ∨ (Rect.block (s := S10000x128) S2000x128.size (cc1_transform_7 i) (hinb1_7 i)).WholeWords (EltTy.packing .f32)

variable [Facts₀]

def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S10000x128_S1600000x1_S1600000x128_1_0_0_1 : ScatterDims S10000x128 S1600000x1 S1600000x128 where
  updateWindowDims := [1]
  insertedWindowDims := [0]
  scatterDimsToOperandDims := [0]
  indexVectorDim := 1
  wf := scatter_S10000x128_S1600000x1_S1600000x128_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S10000 : Shape := ⟨1, ![10000]⟩
abbrev S10000x1 : Shape := ⟨2, ![10000, 1]⟩
abbrev S100000x256 : Shape := ⟨2, ![100000, 256]⟩
abbrev S256x128 : Shape := ⟨2, ![256, 128]⟩
abbrev S1x128 : Shape := ⟨2, ![1, 128]⟩
abbrev S10000x256 : Shape := ⟨2, ![10000, 256]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S10000x128, .f32⟩
  | 2 => ⟨S128x256, .f32⟩
  | 3 => ⟨S128, .f32⟩
  | 4 => ⟨S128x256, .f32⟩
  | 5 => ⟨S128, .f32⟩
  | 6 => ⟨S128, .f32⟩
  | 7 => ⟨S128, .f32⟩
  | 8 => ⟨S128, .f32⟩
  | 9 => ⟨S128, .f32⟩
  | 10 => ⟨S1600000, .i32⟩
  | 11 => ⟨S1600000, .i32⟩
  | 12 => ⟨S_, .f32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S10000x128, .f32⟩
  | 49 => ⟨S1600000x1, .i32⟩
  | 50 => ⟨S10000x128, .f32⟩
  | 51 => ⟨S_, .f32⟩
  | 52 => ⟨S10000, .f32⟩
  | 53 => ⟨S1600000x1, .i32⟩
  | 54 => ⟨S10000, .f32⟩
  | 55 => ⟨S_, .f32⟩
  | 56 => ⟨S_, .f32⟩
  | 57 => ⟨S10000, .f32⟩
  | 58 => ⟨S10000, .f32⟩
  | 59 => ⟨S10000x1, .f32⟩
  | 60 => ⟨S10000x128, .f32⟩
  | 61 => ⟨S10000x128, .f32⟩
  | 62 => ⟨S100000x256, .f32⟩
  | 63 => ⟨S256x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000, .f32⟩
  | 73 => ⟨S100000x1, .f32⟩
  | 74 => ⟨S_, .f32⟩
  | 75 => ⟨S100000x1, .f32⟩
  | 76 => ⟨S100000x1, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S_, .f32⟩
  | 89 => ⟨S100000x1, .f32⟩
  | 90 => ⟨S100000x1, .f32⟩
  | 91 => ⟨S100000x1, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S10000x256, .f32⟩
  | 101 => ⟨S256x128, .f32⟩
  | 102 => ⟨S10000x128, .f32⟩
  | 103 => ⟨S1x128, .f32⟩
  | 104 => ⟨S10000x128, .f32⟩
  | 105 => ⟨S10000x128, .f32⟩
  | 106 => ⟨S_, .f32⟩
  | 107 => ⟨S10000x128, .f32⟩
  | 108 => ⟨S10000x128, .f32⟩
  | 109 => ⟨S_, .f32⟩
  | 110 => ⟨S10000, .f32⟩
  | 111 => ⟨S10000x1, .f32⟩
  | 112 => ⟨S_, .f32⟩
  | 113 => ⟨S10000x1, .f32⟩
  | 114 => ⟨S10000x1, .f32⟩
  | 115 => ⟨S10000x128, .f32⟩
  | 116 => ⟨S10000x128, .f32⟩
  | 117 => ⟨S10000x128, .f32⟩
  | 118 => ⟨S_, .f32⟩
  | 119 => ⟨S10000, .f32⟩
  | 120 => ⟨S10000x1, .f32⟩
  | 121 => ⟨S_, .f32⟩
  | 122 => ⟨S10000x1, .f32⟩
  | 123 => ⟨S10000x1, .f32⟩
  | 124 => ⟨S10000x128, .f32⟩
  | 125 => ⟨S10000x128, .f32⟩
  | 126 => ⟨S_, .f32⟩
  | 127 => ⟨S10000x1, .f32⟩
  | _ => ⟨S100000x128, .f32⟩

abbrev hbmTy0_1 (i : Nat) : BufTy := match i % 128 with
  | 0 => ⟨S10000x1, .f32⟩
  | 1 => ⟨S10000x1, .f32⟩
  | 2 => ⟨S10000x128, .f32⟩
  | 3 => ⟨S10000x128, .f32⟩
  | 4 => ⟨S1x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_cst : Ref sig .tc := ⟨.hbm, 68, rfl⟩
abbrev main_call2_v0 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call3_cst : Ref sig .tc := ⟨.hbm, 106, rfl⟩
abbrev main_call3_v0 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  reducesTo_S10000x128_S10000_d1 : S10000x128.ReducesTo [1] S10000
  bcast_S_S10000x1 : S_.BroadcastsInDim S10000x1 (![] : Fin 0 → Fin S10000x1.rank)
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S10000x128_S1600000x1_S1600000x128_1_0_0_1_wf : ScatterDims.WF S10000x128 S1600000x1 S1600000x128 [1] [0] [0] 1
  scatter_S10000_S1600000x1_S1600000_n_0_0_1_wf : ScatterDims.WF S10000 S1600000x1 S1600000 [] [0] [0] 1
  dot_S100000x256_S256x128_S100000x128_1_0_0_1_n_n_wf : DotDims.WF S100000x256 S256x128 S100000x128 [1] [0] [0] [1] [] []
  dot_S10000x256_S256x128_S10000x128_1_0_0_1_n_n_wf : DotDims.WF S10000x256 S256x128 S10000x128 [1] [0] [0] [1] [] []

variable [Facts₀]

def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S10000x128_S1600000x1_S1600000x128_1_0_0_1 : ScatterDims S10000x128 S1600000x1 S1600000x128 where
  updateWindowDims := [1]
  insertedWindowDims := [0]
  scatterDimsToOperandDims := [0]
  indexVectorDim := 1
  wf := scatter_S10000x128_S1600000x1_S1600000x128_1_0_0_1_wf
def scatter_S10000_S1600000x1_S1600000_n_0_0_1 : ScatterDims S10000 S1600000x1 S1600000 where
  updateWindowDims := []
  insertedWindowDims := [0]
  scatterDimsToOperandDims := [0]
  indexVectorDim := 1
  wf := scatter_S10000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Run.lean ====
/-
  The idealised kernel program's run with its two results named.

  The program is five stretches of host operations, the first fused kernel over a grid of 50 row blocks, one more stretch
  of host operations and the second fused kernel over 5 row blocks. Every weakly fair execution terminates without a fault;
  at the end each unscoped buffer holds what the fold of the segments leaves in it, so the first result's buffer holds
  the array the first kernel's write-backs leave (no later segment writes it), the second result's buffer the array the
  second kernel's write-backs leave, and the twelve argument buffers hold what they were launched with.
-/
import proofs.«103226_j88527865905575_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result's buffer is no array of the second kernel and no later host operation writes it: at the end it
    holds the array the first kernel's write-backs leave. -/
theorem W8_main_v46 (c : Dev nD) : W8 m ρ c (Proc.devRef .tc main_v46) = (dat0 (V5 m ρ) c).arrAt 7 cfg0.N :=
  calc W8 m ρ c (Proc.devRef .tc main_v46)
    _ = W7 m ρ c (Proc.devRef .tc main_v46) := W8_of_ne m ρ c main_v46 (by decide)
    _ = W6 m ρ c (Proc.devRef .tc main_v46) := StableHlo.after_of_forall_not_mem (b := Proc.devRef .tc main_v46) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V5 m ρ) c).arrAt 7 cfg0.N := W6_arr m ρ c 7

/-- The second result's buffer holds the array the second kernel's write-backs leave. -/
theorem W8_main_v50 (c : Dev nD) : W8 m ρ c (Proc.devRef .tc main_v50) = (dat1 (V7 m ρ) c).arrAt 7 cfg1.N :=
  W8_arr m ρ c 7

set_option backward.isDefEq.respectTransparency.types false in
/-- THE RUN with the results named: every weakly fair execution terminates, nothing faulting, with each result buffer
    at the array its kernel's write-backs leave and the argument buffers as launched. -/
theorem run : θ_run defs (onTc (τ := τ) (main (F := F))) ⟨m, fun _ => 0, ρ⟩ (fun r => ∀ c : Dev nD,
      r.2.mem ((c.tc : Thread nD τ).loc main_v46) = (dat0 (V5 m ρ) c).arrAt 7 cfg0.N
      ∧ r.2.mem ((c.tc : Thread nD τ).loc main_v50) = (dat1 (V7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v46 (by decide))).trans (W8_main_v46 m ρ c),
       (h c _ (mem_uc main_v50 (by decide))).trans (W8_main_v50 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Outputs

end
-- ==== Proof.Keep.lean ====
/-
  Which buffers each stretch of host operations of the idealised kernel program writes, and hence which it keeps.

  The program's host side is six stretches of operations; a buffer that is not a result of any operation of a stretch
  holds after the stretch what it held before. In particular the twelve argument buffers, which no host operation
  writes, hold at the first kernel's entry what they were launched with.
-/
import proofs.«103226_j88527865905575_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg) (c : Dev nD)

/-- The buffers the operations of stretch `hostOps0` write. -/
abbrev written0 : List (Ref sig .tc) := [main_cst, main_v0, main_c, main_v1, main_v2, main_c_0, main_v3, main_v4, main_v5, main_v6, main_v7, main_cst_1, main_v8, main_v9, main_v10, main_cst_2, main_v11, main_v12, main_v13, main_cst_3]
theorem writes0 : (hostOps0 : List (HloOp τ sig (Elt F))).Forall fun op => op.writes ⊆ (written0.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch `hostOps1` write. -/
abbrev written1 : List (Ref sig .tc) := [main_v47, main_v48, main_v49]
theorem writes1 : (hostOps1 : List (HloOp τ sig (Elt F))).Forall fun op => op.writes ⊆ (written1.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch `hostOps0_1` write. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch `hostOps0_2` write. -/
abbrev written0_2 : List (Ref sig .tc) := [main_v15, main_v16, main_v17, main_c_4, main_v18, main_v19, main_c_5, main_v20, main_v21, main_v22, main_v23, main_v24, main_cst_6, main_v25, main_v26, main_v27, main_cst_7, main_v28, main_v29, main_v30, main_cst_8]
theorem writes0_2 : (hostOps0_2 : List (HloOp τ sig (Elt F))).Forall fun op => op.writes ⊆ (written0_2.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch `hostOps0_3` write. -/
abbrev written0_3 : List (Ref sig .tc) := [main_call1_v0, main_call1_v1, main_v31]
theorem writes0_3 : (hostOps0_3 : List (HloOp τ sig (Elt F))).Forall fun op => op.writes ⊆ (written0_3.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch `hostOps0_4` write. -/
abbrev written0_4 : List (Ref sig .tc) := [main_v32, main_v33, main_v34, main_v35, main_v36, main_v37, main_v38, main_v39, main_v40, main_v41, main_v42, main_v43, main_v44, main_v45]
theorem writes0_4 : (hostOps0_4 : List (HloOp τ sig (Elt F))).Forall fun op => op.writes ⊆ (written0_4.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer stretch `hostOps0` does not write is kept through it. -/
theorem keep1 (r : Ref sig .tc) (h : r ∉ written0) : W1 m ρ c (Proc.devRef .tc r) = W0 m ρ c (Proc.devRef .tc r) :=
  StableHlo.after_of_writes_sub hostOps0 _ (writes0 (F := F)) h

/-- A buffer stretch `hostOps0_1` does not write is kept through it. -/
theorem keep2 (r : Ref sig .tc) (h : r ∉ written0_1) : W2 m ρ c (Proc.devRef .tc r) = W1 m ρ c (Proc.devRef .tc r) :=
  StableHlo.after_of_writes_sub hostOps0_1 _ (writes0_1 (F := F)) h

/-- A buffer stretch `hostOps0_2` does not write is kept through it. -/
theorem keep3 (r : Ref sig .tc) (h : r ∉ written0_2) : W3 m ρ c (Proc.devRef .tc r) = W2 m ρ c (Proc.devRef .tc r) :=
  StableHlo.after_of_writes_sub hostOps0_2 _ (writes0_2 (F := F)) h

/-- A buffer stretch `hostOps0_3` does not write is kept through it. -/
theorem keep4 (r : Ref sig .tc) (h : r ∉ written0_3) : W4 m ρ c (Proc.devRef .tc r) = W3 m ρ c (Proc.devRef .tc r) :=
  StableHlo.after_of_writes_sub hostOps0_3 _ (writes0_3 (F := F)) h

/-- A buffer stretch `hostOps0_4` does not write is kept through it. -/
theorem keep5 (r : Ref sig .tc) (h : r ∉ written0_4) : W5 m ρ c (Proc.devRef .tc r) = W4 m ρ c (Proc.devRef .tc r) :=
  StableHlo.after_of_writes_sub hostOps0_4 _ (writes0_4 (F := F)) h

/-- A buffer stretch `hostOps1` does not write is kept through it. -/
theorem keep7 (r : Ref sig .tc) (h : r ∉ written1) : W7 m ρ c (Proc.devRef .tc r) = W6 m ρ c (Proc.devRef .tc r) :=
  StableHlo.after_of_writes_sub hostOps1 _ (writes1 (F := F)) h

/-- A buffer no host operation before the first kernel writes holds at its entry what it was launched with. -/
theorem launched (r : Ref sig .tc) (h0 : r ∉ written0) (h1 : r ∉ written0_1) (h2 : r ∉ written0_2) (h3 : r ∉ written0_3)
    (h4 : r ∉ written0_4) : W5 m ρ c (Proc.devRef .tc r) = m ((c : Thread nD τ).loc r) :=
  (keep5 m ρ c r h4).trans ((keep4 m ρ c r h3).trans ((keep3 m ρ c r h2).trans ((keep2 m ρ c r h1).trans (keep1 m ρ c r h0))))

/-- A buffer that is no array of the first kernel and that the host operations between the kernels do not write holds,
    when the second kernel starts, what it held when the first started. -/
theorem carried (r : Ref sig .tc) (h0 : ∀ w, Pipeline.arrRef spec0 w ≠ r) (h1 : r ∉ written1) :
    W7 m ρ c (Proc.devRef .tc r) = W5 m ρ c (Proc.devRef .tc r) :=
  (keep7 m ρ c r h1).trans (W6_of_ne m ρ c r h0)

/-! ## Typed references of the two clip functions

A value of an outlined function is carried between its own type and its buffer's type by a transport along the equation
of the two types; for these buffers the two types are the same, so the transport is the identity. -/

theorem toBuf_main_v14 {Val : EltTy → Type} {p1 p2 p3} (v : (⟨S100000, .f32⟩ : BufTy).Contents Val) :
    (StableHlo.TRef.of (sig := sig) (T := ⟨S100000, .f32⟩) main_v14 p1 p2 p3).toBuf v = v := eq_of_heq (cast_heq _ v)
theorem ofBuf_main_v13 {Val : EltTy → Type} {p1 p2 p3} (v : (⟨S100000, .f32⟩ : BufTy).Contents Val) :
    (StableHlo.TRef.of (sig := sig) (T := ⟨S100000, .f32⟩) main_v13 p1 p2 p3).ofBuf v = v := eq_of_heq (cast_heq _ v)
theorem ofBuf_main_cst_3 {Val : EltTy → Type} {p1 p2 p3} (v : (⟨S_, .f32⟩ : BufTy).Contents Val) :
    (StableHlo.TRef.of (sig := sig) (T := ⟨S_, .f32⟩) main_cst_3 p1 p2 p3).ofBuf v = v := eq_of_heq (cast_heq _ v)
theorem toBuf_main_v31 {Val : EltTy → Type} {p1 p2 p3} (v : (⟨S10000, .f32⟩ : BufTy).Contents Val) :
    (StableHlo.TRef.of (sig := sig) (T := ⟨S10000, .f32⟩) main_v31 p1 p2 p3).toBuf v = v := eq_of_heq (cast_heq _ v)
theorem ofBuf_main_v30 {Val : EltTy → Type} {p1 p2 p3} (v : (⟨S10000, .f32⟩ : BufTy).Contents Val) :
    (StableHlo.TRef.of (sig := sig) (T := ⟨S10000, .f32⟩) main_v30 p1 p2 p3).ofBuf v = v := eq_of_heq (cast_heq _ v)
theorem ofBuf_main_cst_8 {Val : EltTy → Type} {p1 p2 p3} (v : (⟨S_, .f32⟩ : BufTy).Contents Val) :
    (StableHlo.TRef.of (sig := sig) (T := ⟨S_, .f32⟩) main_cst_8 p1 p2 p3).ofBuf v = v := eq_of_heq (cast_heq _ v)

end Cert.KernelIdeal.Keep

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.Spec.lean ====
/-
  One row of a bipartite neighbourhood-averaging layer, on the extended reals.

  A node's own feature row u and the mean v of its neighbours' rows (both of 128 entries) are laid side by side and
  multiplied by a 128 × 256 weight W, a bias b is added, negative entries are cut off at 0, and the row is normalised:
  with a the cut-off row, μ = (Σ a) / 128 its mean and σ² = (Σ (a − μ)²) / 128 its variance, entry j of the result is
      (a j − μ) · rsqrt(σ² + ε) · g j + β j .
  The product against the 256 columns is written as two sums of 128 terms, one per half of the weight's columns.
-/
import Idealize.ShloMosaic.PureOps.Ideal.Laws
import Idealize.ShloMosaic.Lib.ValueIdx

noncomputable section

namespace Cert.SageLayer

open Idealize.ShloMosaic Idealize.ShloMosaic.ValueIdx

/-- Column k of the left half of a 256-wide row. -/
def lo (k : Fin 128) : Fin 256 := ⟨k.val, by omega⟩
/-- Column k of the right half of a 256-wide row. -/
def hi (k : Fin 128) : Fin 256 := ⟨128 + k.val, by omega⟩

/-- A sum over 256 columns is the sum over the left half plus the sum over the right half. -/
theorem sum_halves {M : Type} [AddCommMonoid M] (f : Fin 256 → M) :
    ∑ k : Fin 256, f k = ∑ k : Fin 128, f (lo k) + ∑ k : Fin 128, f (hi k) :=
  Fin.sum_univ_add (a := 128) (b := 128) f

/-- Entry j of the row before the cut-off: u against the left half of W's row j, v against its right half, plus the bias. -/
def lin (u v : Fin 128 → EReal) (W : Fin 128 → Fin 256 → EReal) (b : Fin 128 → EReal) (j : Fin 128) : EReal :=
  (∑ k : Fin 128, u k * W j (lo k) + ∑ k : Fin 128, v k * W j (hi k)) + b j

/-- The cut-off at 0. -/
def cut (y : EReal) : EReal := max y (Ideal.ofBits .f32 0x00000000#32)

/-- The mean of a row of 128 entries. -/
def mean (a : Fin 128 → EReal) : EReal := Ideal.div (∑ l : Fin 128, a l) (Ideal.ofBits .f32 0x43000000#32)

/-- The normalised row: centred, scaled by the reciprocal root of variance plus ε, then by g, shifted by β. -/
def normed (a g β : Fin 128 → EReal) (j : Fin 128) : EReal :=
  (a j - mean a) * Ideal.rsqrt (mean (fun l => (a l - mean a) * (a l - mean a)) + Ideal.ofBits .f32 0x3727C5AC#32) * g j + β j

/-- The layer's row. -/
def row (u v : Fin 128 → EReal) (W : Fin 128 → Fin 256 → EReal) (b g β : Fin 128 → EReal) (j : Fin 128) : EReal :=
  normed (fun l => cut (lin u v W b l)) g β j

end Cert.SageLayer

end
-- ==== Proof.EntryJob.lean ====
/-
  What the first fused kernel finds in its operand arrays.

  The host has averaged, for every job, the feature rows of the machines it is linked to: a row gather of the machine
  features by the (wrapped) machine index of each link, a scatter-add of the gathered rows into zeros by the job index, the
  same scatter-add of ones giving the number of links, clipped below at 1, and the quotient — the same operations, in the
  same order, as the reference's, so stage by stage the buffers hold the reference's stages. The job weight has been cut
  into its left and right 128 columns and each half transposed; bias, scale and shift are viewed as 1 × 128 rows.
-/
import proofs.«103226_j88527865905575_1_alg».proof.Proof.Keep
import proofs.«103226_j88527865905575_1_alg».proof.Proof.LibTypedRefs
import proofs.«103226_j88527865905575_1_alg».proof.Proof.Gen.ReferenceIdeal.Read
import proofs.«103226_j88527865905575_1_alg».proof.Proof.Spec
import Idealize.ShloMosaic.Lib.ValueLayout

set_option maxRecDepth 16384

noncomputable section

namespace Cert.KernelIdeal.EntryJob

open Cert.KernelIdeal Cert.KernelIdeal.Gen Cert.KernelIdeal.Keep Idealize.ShloMosaic Idealize.ShloMosaic.TcCoe Idealize.SL.Sem
open Idealize.ShloMosaic.StableHlo Idealize.ShloMosaic.ValueIdx Cert.SageLayer

variable (m : (ℓ : Loc nD τ sig) → Buf (Elt Ideal) ℓ) (ρ : Dev nD → PrngReg) (c : Dev nD)

/-- The gathered machine rows summed per job. -/
theorem sum_rows : W1 m ρ c (Proc.devRef .tc main_v10) = Cert.ReferenceIdeal.Read.val_main_v10 (F := Ideal) (m ((c : Thread nD τ).loc main_arg1)) (m ((c : Thread nD τ).loc main_arg10)) (m ((c : Thread nD τ).loc main_arg11)) := by
  show StableHlo.after hostOps0 (W0 m ρ c) (Proc.devRef .tc main_v10) = _
  after_results_simp
  rfl

/-- The number of links per job. -/
theorem count : W1 m ρ c (Proc.devRef .tc main_v13) = Cert.ReferenceIdeal.Read.val_main_v13 (F := Ideal) (m ((c : Thread nD τ).loc main_arg10)) := by
  show StableHlo.after hostOps0 (W0 m ρ c) (Proc.devRef .tc main_v13) = _
  after_results_simp
  rfl

/-- The constant 1 the count is clipped at. -/
theorem one : W1 m ρ c (Proc.devRef .tc main_cst_3) = Cert.ReferenceIdeal.Read.val_main_cst_3 (F := Ideal) := by
  show StableHlo.after hostOps0 (W0 m ρ c) (Proc.devRef .tc main_cst_3) = _
  after_results_simp
  rfl

/-- The clipped count. -/
theorem degree : W2 m ρ c (Proc.devRef .tc main_v14) = Cert.ReferenceIdeal.Read.val_main_v14 (F := Ideal) (m ((c : Thread nD τ).loc main_arg10)) := by
  show StableHlo.after hostOps0_1 (W1 m ρ c) (Proc.devRef .tc main_v14) = _
  after_results_simp
  simp only [Cert.LibTypedRefs.ofBuf_toBuf, Cert.LibTypedRefs.toBuf_ofBuf, toBuf_main_v14, ofBuf_main_v13, ofBuf_main_cst_3, toBuf_main_v31, ofBuf_main_v30, ofBuf_main_cst_8]
  rfl

/-- THE JOBS' NEIGHBOUR MEANS at the first kernel's entry are the reference's. -/
theorem nbr : V5 m ρ c main_v17 = Cert.ReferenceIdeal.Read.val_main_v17 (F := Ideal) (m ((c : Thread nD τ).loc main_arg1)) (m ((c : Thread nD τ).loc main_arg10)) (m ((c : Thread nD τ).loc main_arg11)) := by
  refine (keep5 m ρ c main_v17 (by decide)).trans ((keep4 m ρ c main_v17 (by decide)).trans ?_)
  show StableHlo.after hostOps0_2 (W2 m ρ c) (Proc.devRef .tc main_v17) = _
  after_results_simp
  simp only [Cert.LibTypedRefs.ofBuf_toBuf, Cert.LibTypedRefs.toBuf_ofBuf, toBuf_main_v14, ofBuf_main_v13, ofBuf_main_cst_3, toBuf_main_v31, ofBuf_main_v30, ofBuf_main_cst_8]
  rfl

/-- The job features are as launched. -/
theorem own : V5 m ρ c main_arg0 = m ((c : Thread nD τ).loc main_arg0) :=
  launched m ρ c main_arg0 (by decide) (by decide) (by decide) (by decide) (by decide)

/-- The transposed left half of the job weight: entry (k, j) is the weight's entry (j, k). -/
theorem w1 (k j : Fin 128) : V5 m ρ c main_v36 (ix2 k j) = m ((c : Thread nD τ).loc main_arg2) (ix2 j (lo k)) := by
  have e : V5 m ρ c main_v36 = transpose S128x128 [1, 0]
      (extractStridedSlice S128x128 ![0, 0] (W4 m ρ c (Proc.devRef .tc main_arg2)) slices_S128x256_S128x128_0_0) transposes_S128x128_S128x128_1_0 := by
    show StableHlo.after hostOps0_4 (W4 m ρ c) (Proc.devRef .tc main_v36) = _
    after_results_simp <;> rfl
  rw [e, keep4 m ρ c main_arg2 (by decide), keep3 m ρ c main_arg2 (by decide), keep2 m ρ c main_arg2 (by decide), keep1 m ρ c main_arg2 (by decide)]
  exact (transpose_ix2_apply _ _ k j).trans (slice2_axis1_apply 0 _ _ j k (lo k) (by show k.val = 0 + k.val; omega))

/-- The transposed right half of the job weight: entry (k, j) is the weight's entry (j, 128 + k). -/
theorem w2 (k j : Fin 128) : V5 m ρ c main_v38 (ix2 k j) = m ((c : Thread nD τ).loc main_arg2) (ix2 j (hi k)) := by
  have e : V5 m ρ c main_v38 = transpose S128x128 [1, 0]
      (extractStridedSlice S128x128 ![0, 128] (W4 m ρ c (Proc.devRef .tc main_arg2)) slices_S128x256_S128x128_0_128) transposes_S128x128_S128x128_1_0 := by
    show StableHlo.after hostOps0_4 (W4 m ρ c) (Proc.devRef .tc main_v38) = _
    after_results_simp <;> rfl
  rw [e, keep4 m ρ c main_arg2 (by decide), keep3 m ρ c main_arg2 (by decide), keep2 m ρ c main_arg2 (by decide), keep1 m ρ c main_arg2 (by decide)]
  exact (transpose_ix2_apply _ _ k j).trans (slice2_axis1_apply 128 _ _ j k (hi k) rfl)

/-- The job bias viewed as a 1 × 128 row. -/
theorem bias (u : Fin 1) (j : Fin 128) : V5 m ρ c main_v43 (ix2 u j) = m ((c : Thread nD τ).loc main_arg3) (ix1 j) := by
  have e : V5 m ρ c main_v43 = shapeCast S1x128 (W4 m ρ c (Proc.devRef .tc main_arg3)) shapeCasts_S128_S1x128 := by
    show StableHlo.after hostOps0_4 (W4 m ρ c) (Proc.devRef .tc main_v43) = _
    after_results_simp <;> rfl
  rw [e, keep4 m ρ c main_arg3 (by decide), keep3 m ρ c main_arg3 (by decide), keep2 m ρ c main_arg3 (by decide), keep1 m ρ c main_arg3 (by decide)]
  exact shapeCast_a_1a_apply _ _ u j

/-- The job scale viewed as a 1 × 128 row. -/
theorem scale (u : Fin 1) (j : Fin 128) : V5 m ρ c main_v44 (ix2 u j) = m ((c : Thread nD τ).loc main_arg6) (ix1 j) := by
  have e : V5 m ρ c main_v44 = shapeCast S1x128 (W4 m ρ c (Proc.devRef .tc main_arg6)) shapeCasts_S128_S1x128 := by
    show StableHlo.after hostOps0_4 (W4 m ρ c) (Proc.devRef .tc main_v44) = _
    after_results_simp <;> rfl
  rw [e, keep4 m ρ c main_arg6 (by decide), keep3 m ρ c main_arg6 (by decide), keep2 m ρ c main_arg6 (by decide), keep1 m ρ c main_arg6 (by decide)]
  exact shapeCast_a_1a_apply _ _ u j

/-- The job shift viewed as a 1 × 128 row. -/
theorem shift (u : Fin 1) (j : Fin 128) : V5 m ρ c main_v45 (ix2 u j) = m ((c : Thread nD τ).loc main_arg7) (ix1 j) := by
  have e : V5 m ρ c main_v45 = shapeCast S1x128 (W4 m ρ c (Proc.devRef .tc main_arg7)) shapeCasts_S128_S1x128 := by
    show StableHlo.after hostOps0_4 (W4 m ρ c) (Proc.devRef .tc main_v45) = _
    after_results_simp <;> rfl
  rw [e, keep4 m ρ c main_arg7 (by decide), keep3 m ρ c main_arg7 (by decide), keep2 m ρ c main_arg7 (by decide), keep1 m ρ c main_arg7 (by decide)]
  exact shapeCast_a_1a_apply _ _ u j

end Cert.KernelIdeal.EntryJob

end
-- ==== Proof.EntryMach.lean ====
/-
  What the second fused kernel finds in its operand arrays.

  Before the first kernel the host has also averaged, for every machine, the feature rows of the jobs it is linked to (the
  same gather, scatter-adds, clipped count and quotient as on the job side, with the two index arrays exchanged), and has
  cut the machine weight into its transposed halves; the first kernel writes none of these buffers, and the three host
  operations between the kernels view the machine side's bias, scale and shift as 1 × 128 rows.
-/
import proofs.«103226_j88527865905575_1_alg».proof.Proof.Keep
import proofs.«103226_j88527865905575_1_alg».proof.Proof.LibTypedRefs
import proofs.«103226_j88527865905575_1_alg».proof.Proof.Gen.ReferenceIdeal.Read
import proofs.«103226_j88527865905575_1_alg».proof.Proof.Spec
import Idealize.ShloMosaic.Lib.ValueLayout

set_option maxRecDepth 16384

noncomputable section

namespace Cert.KernelIdeal.EntryMach

open Cert.KernelIdeal Cert.KernelIdeal.Gen Cert.KernelIdeal.Keep Idealize.ShloMosaic Idealize.ShloMosaic.TcCoe Idealize.SL.Sem
open Idealize.ShloMosaic.StableHlo Idealize.ShloMosaic.ValueIdx Cert.SageLayer

variable (m : (ℓ : Loc nD τ sig) → Buf (Elt Ideal) ℓ) (ρ : Dev nD → PrngReg) (c : Dev nD)

/-- THE MACHINES' NEIGHBOUR MEANS at the second kernel's entry are the reference's. -/
theorem nbr : V7 m ρ c main_v34 = Cert.ReferenceIdeal.Read.val_main_v34 (F := Ideal) (m ((c : Thread nD τ).loc main_arg0)) (m ((c : Thread nD τ).loc main_arg10)) (m ((c : Thread nD τ).loc main_arg11)) := by
  refine (carried m ρ c main_v34 (by decide) (by decide)).trans ?_
  show StableHlo.after hostOps0_4 (W4 m ρ c) (Proc.devRef .tc main_v34) = _
  after_results_simp
  simp only [Cert.LibTypedRefs.ofBuf_toBuf, Cert.LibTypedRefs.toBuf_ofBuf, toBuf_main_v14, ofBuf_main_v13, ofBuf_main_cst_3, toBuf_main_v31, ofBuf_main_v30, ofBuf_main_cst_8]
  rfl

/-- The machine features are as launched. -/
theorem own : V7 m ρ c main_arg1 = m ((c : Thread nD τ).loc main_arg1) :=
  (carried m ρ c main_arg1 (by decide) (by decide)).trans
    (launched m ρ c main_arg1 (by decide) (by decide) (by decide) (by decide) (by decide))

/-- The transposed left half of the machine weight: entry (k, j) is the weight's entry (j, k). -/
theorem w1 (k j : Fin 128) : V7 m ρ c main_v40 (ix2 k j) = m ((c : Thread nD τ).loc main_arg4) (ix2 j (lo k)) := by
  have e : V7 m ρ c main_v40 = transpose S128x128 [1, 0]
      (extractStridedSlice S128x128 ![0, 0] (W4 m ρ c (Proc.devRef .tc main_arg4)) slices_S128x256_S128x128_0_0) transposes_S128x128_S128x128_1_0 := by
    refine (carried m ρ c main_v40 (by decide) (by decide)).trans ?_
    show StableHlo.after hostOps0_4 (W4 m ρ c) (Proc.devRef .tc main_v40) = _
    after_results_simp <;> rfl
  rw [e, keep4 m ρ c main_arg4 (by decide), keep3 m ρ c main_arg4 (by decide), keep2 m ρ c main_arg4 (by decide), keep1 m ρ c main_arg4 (by decide)]
  exact (transpose_ix2_apply _ _ k j).trans (slice2_axis1_apply 0 _ _ j k (lo k) (by show k.val = 0 + k.val; omega))

/-- The transposed right half of the machine weight: entry (k, j) is the weight's entry (j, 128 + k). -/
theorem w2 (k j : Fin 128) : V7 m ρ c main_v42 (ix2 k j) = m ((c : Thread nD τ).loc main_arg4) (ix2 j (hi k)) := by
  have e : V7 m ρ c main_v42 = transpose S128x128 [1, 0]
      (extractStridedSlice S128x128 ![0, 128] (W4 m ρ c (Proc.devRef .tc main_arg4)) slices_S128x256_S128x128_0_128) transposes_S128x128_S128x128_1_0 := by
    refine (carried m ρ c main_v42 (by decide) (by decide)).trans ?_
    show StableHlo.after hostOps0_4 (W4 m ρ c) (Proc.devRef .tc main_v42) = _
    after_results_simp <;> rfl
  rw [e, keep4 m ρ c main_arg4 (by decide), keep3 m ρ c main_arg4 (by decide), keep2 m ρ c main_arg4 (by decide), keep1 m ρ c main_arg4 (by decide)]
  exact (transpose_ix2_apply _ _ k j).trans (slice2_axis1_apply 128 _ _ j k (hi k) rfl)

/-- The machine bias viewed as a 1 × 128 row. -/
theorem bias (u : Fin 1) (j : Fin 128) : V7 m ρ c main_v47 (ix2 u j) = m ((c : Thread nD τ).loc main_arg5) (ix1 j) := by
  have e : V7 m ρ c main_v47 = shapeCast S1x128 (W6 m ρ c (Proc.devRef .tc main_arg5)) shapeCasts_S128_S1x128 := by
    show StableHlo.after hostOps1 (W6 m ρ c) (Proc.devRef .tc main_v47) = _
    after_results_simp <;> rfl
  rw [e, W6_of_ne m ρ c main_arg5 (by decide), launched m ρ c main_arg5 (by decide) (by decide) (by decide) (by decide) (by decide)]
  exact shapeCast_a_1a_apply _ _ u j

/-- The machine scale viewed as a 1 × 128 row. -/
theorem scale (u : Fin 1) (j : Fin 128) : V7 m ρ c main_v48 (ix2 u j) = m ((c : Thread nD τ).loc main_arg8) (ix1 j) := by
  have e : V7 m ρ c main_v48 = shapeCast S1x128 (W6 m ρ c (Proc.devRef .tc main_arg8)) shapeCasts_S128_S1x128 := by
    show StableHlo.after hostOps1 (W6 m ρ c) (Proc.devRef .tc main_v48) = _
    after_results_simp <;> rfl
  rw [e, W6_of_ne m ρ c main_arg8 (by decide), launched m ρ c main_arg8 (by decide) (by decide) (by decide) (by decide) (by decide)]
  exact shapeCast_a_1a_apply _ _ u j

/-- The machine shift viewed as a 1 × 128 row. -/
theorem shift (u : Fin 1) (j : Fin 128) : V7 m ρ c main_v49 (ix2 u j) = m ((c : Thread nD τ).loc main_arg9) (ix1 j) := by
  have e : V7 m ρ c main_v49 = shapeCast S1x128 (W6 m ρ c (Proc.devRef .tc main_arg9)) shapeCasts_S128_S1x128 := by
    show StableHlo.after hostOps1 (W6 m ρ c) (Proc.devRef .tc main_v49) = _
    after_results_simp <;> rfl
  rw [e, W6_of_ne m ρ c main_arg9 (by decide), launched m ρ c main_arg9 (by decide) (by decide) (by decide) (by decide) (by decide)]
  exact shapeCast_a_1a_apply _ _ u j

end Cert.KernelIdeal.EntryMach

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.Body.lean ====
/-
  What one grid point of either fused kernel leaves in its output block, entry by entry.

  The body takes a 2000 × 128 block x of node rows, the matching block y of neighbour means, the two 128 × 128 halves
  w₁, w₂ of the transposed weight and three 1 × 128 rows (bias, scale, shift). Entry (p, q) of what it stores is the
  layer's row (Spec.lean) of x's row p and y's row p at column q: the two products into zero accumulators are plain
  sums over the 128 contracted columns, the narrowing of the operands changes nothing on the extended reals, the
  1 × 128 rows are repeated down the block, and the two lane sums are sums over the 128 entries of row p.
-/
import proofs.«103226_j88527865905575_1_alg».proof.Proof.Gen.KernelIdeal.Skeleton
import proofs.«103226_j88527865905575_1_alg».proof.Proof.Spec
import proofs.«103226_j88527865905575_1_alg».proof.Proof.LibPlainDot
import proofs.«103226_j88527865905575_1_alg».proof.Proof.LibColumn
import Idealize.ShloMosaic.Lib.ValueLayout

noncomputable section

namespace Cert.KernelIdeal.Body

open Cert.KernelIdeal Cert.KernelIdeal.Gen Idealize.ShloMosaic Idealize.ShloMosaic.ValueIdx Cert.SageLayer
/-- The block before the cut-off: the two products and the bias row repeated down the block. -/
def blkLin (x0 x1 : Vec Ideal S2000x128 .f32) (x2 x3 : Vec Ideal S128x128 .f32) (x4 : Vec Ideal S1x128 .f32) :
    FVec Ideal S2000x128 .f32 :=
  addf (addf
      (matmul dot_S2000x128_S128x128_S2000x128_1_0_0_1_n_n none (truncf .bf16 x0 bitsLt_bf16_f32) (truncf .bf16 x2 bitsLt_bf16_f32)
        (constant S2000x128 .f32 0x00000000#32))
      (matmul dot_S2000x128_S128x128_S2000x128_1_0_0_1_n_n none (truncf .bf16 x1 bitsLt_bf16_f32) (truncf .bf16 x3 bitsLt_bf16_f32)
        (constant S2000x128 .f32 0x00000000#32)))
    (broadcastTo S2000x128 x4 broadcasts_S1x128_S2000x128)

/-- The block after the cut-off at 0. -/
def blkCut (x0 x1 : Vec Ideal S2000x128 .f32) (x2 x3 : Vec Ideal S128x128 .f32) (x4 : Vec Ideal S1x128 .f32) :
    FVec Ideal S2000x128 .f32 :=
  maximumf (blkLin x0 x1 x2 x3 x4) (broadcast S2000x128 (Scalar.ofBits (F := Ideal) .f32 0x00000000#32))

/-- The column of row means of a block. -/
def blkMean (a : FVec Ideal S2000x128 .f32) : FVec Ideal S2000x1 .f32 :=
  divf (shapeCast S2000x1 (multiReduction .add [1] S2000 a 0x00000000#32 reduces_S2000x128_S2000 (.inl rfl) rfl) shapeCasts_S2000_S2000x1)
    (broadcast S2000x1 (Scalar.ofBits (F := Ideal) .f32 0x43000000#32))

/-- The block centred on its row means. -/
def blkCentred (a : FVec Ideal S2000x128 .f32) : FVec Ideal S2000x128 .f32 :=
  subf a (broadcastTo S2000x128 (blkMean a) broadcasts_S2000x1_S2000x128)

/-- The normalised block. -/
def blkNormed (a : FVec Ideal S2000x128 .f32) (x5 x6 : Vec Ideal S1x128 .f32) : FVec Ideal S2000x128 .f32 :=
  addf (mulf (mulf (blkCentred a)
        (broadcastTo S2000x128 (rsqrt (addf (blkMean (mulf (blkCentred a) (blkCentred a)))
          (broadcast S2000x1 (Scalar.ofBits (F := Ideal) .f32 0x3727C5AC#32)))) broadcasts_S2000x1_S2000x128))
      (broadcastTo S2000x128 x5 broadcasts_S1x128_S2000x128))
    (broadcastTo S2000x128 x6 broadcasts_S1x128_S2000x128)

/-- Region 0's stored value is the normalised cut-off block. -/
theorem pay0_eq (x0 x1 : Vec Ideal S2000x128 .f32) (x2 x3 : Vec Ideal S128x128 .f32) (x4 x5 x6 : Vec Ideal S1x128 .f32) :
    k0_pay1 (k0_pay2 x0 x1 x2 x3 x4) x5 x6 = blkNormed (blkCut x0 x1 x2 x3 x4) x5 x6 := by
  unfold k0_pay1 k0_pay2 blkNormed blkCentred blkMean blkCut blkLin
  simp only [shapeCast_self]

/-- Region 1's stored value is the same function of its blocks. -/
theorem pay1_eq (x0 x1 : Vec Ideal S2000x128 .f32) (x2 x3 : Vec Ideal S128x128 .f32) (x4 x5 x6 : Vec Ideal S1x128 .f32) :
    k1_pay1 (k1_pay2 x0 x1 x2 x3 x4) x5 x6 = blkNormed (blkCut x0 x1 x2 x3 x4) x5 x6 := by
  unfold k1_pay1 k1_pay2 blkNormed blkCentred blkMean blkCut blkLin
  simp only [shapeCast_self]

section Entries

variable (x0 x1 : Vec Ideal S2000x128 .f32) (x2 x3 : Vec Ideal S128x128 .f32) (x4 x5 x6 : Vec Ideal S1x128 .f32)
  (W : Fin 128 → Fin 256 → EReal)
  (hw1 : ∀ (k j : Fin 128), x2 (ix2 k j) = W j (lo k)) (hw2 : ∀ (k j : Fin 128), x3 (ix2 k j) = W j (hi k))

include hw1 hw2 in
/-- Entry (p, l) before the cut-off is the row's entry l. -/
theorem blkLin_apply (p : Fin 2000) (l : Fin 128) :
    blkLin x0 x1 x2 x3 x4 (ix2 p l)
      = lin (fun k => x0 (ix2 p k)) (fun k => x1 (ix2 p k)) W (fun j => x4 (ix2 (0 : Fin 1) j)) l := by
  have h1 := Cert.LibPlainDot.matmul_plain 2000 128 128 none (truncf .bf16 x0 bitsLt_bf16_f32) (truncf .bf16 x2 bitsLt_bf16_f32) (ix2 p l)
  have h2 := Cert.LibPlainDot.matmul_plain 2000 128 128 none (truncf .bf16 x1 bitsLt_bf16_f32) (truncf .bf16 x3 bitsLt_bf16_f32) (ix2 p l)
  have h3 := broadcastTo_1b_ab_apply x4 broadcasts_S1x128_S2000x128 p l
  refine (congr (congrArg HAdd.hAdd (congr (congrArg HAdd.hAdd h1) h2)) h3).trans ?_
  unfold lin
  refine congr (congrArg HAdd.hAdd (congr (congrArg HAdd.hAdd (Finset.sum_congr rfl fun k _ => ?_)) (Finset.sum_congr rfl fun k _ => ?_))) rfl
  · exact congrArg (x0 (ix2 p k) * ·) (hw1 k l)
  · exact congrArg (x1 (ix2 p k) * ·) (hw2 k l)

include hw1 hw2 in
/-- Entry (p, l) after the cut-off. -/
theorem blkCut_apply (p : Fin 2000) (l : Fin 128) :
    blkCut x0 x1 x2 x3 x4 (ix2 p l)
      = cut (lin (fun k => x0 (ix2 p k)) (fun k => x1 (ix2 p k)) W (fun j => x4 (ix2 (0 : Fin 1) j)) l) :=
  congrArg (max · (Ideal.ofBits .f32 0x00000000#32)) (blkLin_apply x0 x1 x2 x3 x4 W hw1 hw2 p l)

end Entries

/-- The mean column at row p is the mean of the block's row p. -/
theorem blkMean_apply (a : FVec Ideal S2000x128 .f32) (p : Fin 2000) (u : Fin 1) :
    blkMean a (ix2 p u) = mean (fun l => a (ix2 p l)) := by
  have h1 := Cert.LibColumn.shapeCast_a_a1_apply
    (multiReduction (F := Ideal) .add [1] S2000 a 0x00000000#32 reduces_S2000x128_S2000 (.inl rfl) rfl) shapeCasts_S2000_S2000x1 p u
  have h2 := Cert.LibColumn.rowSum_apply a 0x00000000#32 reduces_S2000x128_S2000 (.inl rfl) rfl p
  exact congrArg (Ideal.div · (Ideal.ofBits .f32 0x43000000#32)) (h1.trans h2)

/-- The centred block at (p, l). -/
theorem blkCentred_apply (a : FVec Ideal S2000x128 .f32) (p : Fin 2000) (l : Fin 128) :
    blkCentred a (ix2 p l) = a (ix2 p l) - mean (fun l => a (ix2 p l)) := by
  have h := (Cert.LibColumn.broadcastTo_a1_ab_apply (blkMean a) broadcasts_S2000x1_S2000x128 p l).trans (blkMean_apply a p 0)
  exact congrArg (a (ix2 p l) - ·) h

/-- The normalised block at (p, q) is the normalised row p at q. -/
theorem blkNormed_apply (a : FVec Ideal S2000x128 .f32) (x5 x6 : Vec Ideal S1x128 .f32) (p : Fin 2000) (q : Fin 128) :
    blkNormed a x5 x6 (ix2 p q)
      = normed (fun l => a (ix2 p l)) (fun j => x5 (ix2 (0 : Fin 1) j)) (fun j => x6 (ix2 (0 : Fin 1) j)) q := by
  have hc := blkCentred_apply a p q
  have hv : blkMean (mulf (blkCentred a) (blkCentred a)) (ix2 p (0 : Fin 1))
      = mean (fun l => (a (ix2 p l) - mean (fun l => a (ix2 p l))) * (a (ix2 p l) - mean (fun l => a (ix2 p l)))) := by
    rw [blkMean_apply]
    exact congrArg mean (funext fun l => congr (congrArg HMul.hMul (blkCentred_apply a p l)) (blkCentred_apply a p l))
  have hr := (Cert.LibColumn.broadcastTo_a1_ab_apply (rsqrt (addf (blkMean (mulf (blkCentred a) (blkCentred a)))
      (broadcast S2000x1 (Scalar.ofBits (F := Ideal) .f32 0x3727C5AC#32)))) broadcasts_S2000x1_S2000x128 p q)
  have h5 := broadcastTo_1b_ab_apply x5 broadcasts_S1x128_S2000x128 p q
  have h6 := broadcastTo_1b_ab_apply x6 broadcasts_S1x128_S2000x128 p q
  unfold normed
  refine congr (congrArg HAdd.hAdd (congr (congrArg HMul.hMul (congr (congrArg HMul.hMul hc) (hr.trans ?_))) h5)) h6
  exact congrArg (fun z => Ideal.rsqrt (z + Ideal.ofBits .f32 0x3727C5AC#32)) hv

/-- THE BLOCK, entry by entry: the layer's row of the two input blocks' rows. -/
theorem blk_apply (x0 x1 : Vec Ideal S2000x128 .f32) (x2 x3 : Vec Ideal S128x128 .f32) (x4 x5 x6 : Vec Ideal S1x128 .f32)
    (W : Fin 128 → Fin 256 → EReal)
    (hw1 : ∀ (k j : Fin 128), x2 (ix2 k j) = W j (lo k)) (hw2 : ∀ (k j : Fin 128), x3 (ix2 k j) = W j (hi k))
    (p : Fin 2000) (q : Fin 128) :
    blkNormed (blkCut x0 x1 x2 x3 x4) x5 x6 (ix2 p q)
      = row (fun k => x0 (ix2 p k)) (fun k => x1 (ix2 p k)) W (fun j => x4 (ix2 (0 : Fin 1) j))
          (fun j => x5 (ix2 (0 : Fin 1) j)) (fun j => x6 (ix2 (0 : Fin 1) j)) q := by
  rw [blkNormed_apply]
  unfold row
  exact congrArg (fun a => normed a _ _ q) (funext fun l => blkCut_apply x0 x1 x2 x3 x4 W hw1 hw2 p l)

/-- The same at an index of the block that is not split into its coordinates. -/
theorem blk_at (x0 x1 : Vec Ideal S2000x128 .f32) (x2 x3 : Vec Ideal S128x128 .f32) (x4 x5 x6 : Vec Ideal S1x128 .f32)
    (W : Fin 128 → Fin 256 → EReal)
    (hw1 : ∀ (k j : Fin 128), x2 (ix2 k j) = W j (lo k)) (hw2 : ∀ (k j : Fin 128), x3 (ix2 k j) = W j (hi k))
    (y : S2000x128.Idx) :
    blkNormed (blkCut x0 x1 x2 x3 x4) x5 x6 y
      = row (fun k => x0 (ix2 (y 0) k)) (fun k => x1 (ix2 (y 0) k)) W (fun j => x4 (ix2 (0 : Fin 1) j))
          (fun j => x5 (ix2 (0 : Fin 1) j)) (fun j => x6 (ix2 (0 : Fin 1) j)) (y 1) :=
  (congrArg (blkNormed (blkCut x0 x1 x2 x3 x4) x5 x6) (eq_ix2 y)).trans (blk_apply x0 x1 x2 x3 x4 x5 x6 W hw1 hw2 (y 0) (y 1))

end Cert.KernelIdeal.Body

end
-- ==== Proof.JobBlocks.lean ====
/-
  The array the first fused kernel's write-backs leave, as one function of the arrays it finds at its entry.

  Grid point t takes rows 2000·t … 2000·t + 1999 of the job features and of their neighbour means, the whole two
  weight halves and the three 1 × 128 rows, and writes back rows 2000·t … 2000·t + 1999 of the result. Entry (p, q) of
  what it writes is the layer's row (Spec.lean) of row 2000·t + p of the two arrays at column q — one function of the
  array index, the same at every grid point —; the 100000 / 2000 = 50 blocks tile the 100000 × 128 result, so the result array
  ends holding that function everywhere. Stated for any contents V of the buffers at the kernel's entry whose weight
  halves are the two transposed halves of a 128 × 256 array and whose 1 × 128 rows are three 128-vectors.
-/
import proofs.«103226_j88527865905575_1_alg».proof.Proof.Gen.KernelIdeal.Frame
import proofs.«103226_j88527865905575_1_alg».proof.Proof.Body
import Idealize.ShloMosaic.Lib.Pipeline.Value

set_option maxRecDepth 16384

noncomputable section

namespace Cert.KernelIdeal.JobBlocks

open Cert.KernelIdeal Cert.KernelIdeal.Gen Idealize.ShloMosaic Idealize.ShloMosaic.TcCoe Idealize.SL.Sem
open Idealize.ShloMosaic.ValueIdx Cert.SageLayer
open Idealize.ShloMosaic.Pipeline (Dat Cfg Window)

theorem hz : (![0, 0] : Fin 2 → Nat) = fun _ => 0 := funext fun a => by fin_cases a <;> rfl

/-- THE RESULT ARRAY as a function of the own features A, the neighbour means B, the weight W and the bias, scale and
    shift vectors: at (r, q) the layer's row of A's row r and B's row r, at column q. -/
def result (A B : S100000x128.Idx → EReal) (W : S128x256.Idx → EReal) (b g s : S128.Idx → EReal) : S100000x128.Idx → EReal := fun i =>
  row (fun k => A (ix2 (i 0) k)) (fun k => B (ix2 (i 0) k)) (fun j cc => W (ix2 j cc))
    (fun j => b (ix1 j)) (fun j => g (ix1 j)) (fun j => s (ix1 j)) (i 1)

/-- The printed index maps over the grid, one window at a time: the two row-blocked inputs and the output are at block
    row t, every other window at block (0, 0); and the grid has 50 points. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem lt_N (t : Fin cfg0.N) : t.val < 50 := by
  have hN : cfg0.N = 50 := N_0
  have := t.isLt
  omega

variable (V : (c : Dev nD) → (b : Ref sig .tc) → Buf (Elt Ideal) ((c : Thread nD τ).loc b)) (c : Dev nD)
  (W : S128x256.Idx → EReal) (b g s : S128.Idx → EReal)
  (hw1 : ∀ k j : Fin 128, V c main_v36 (ix2 k j) = W (ix2 j (lo k)))
  (hw2 : ∀ k j : Fin 128, V c main_v38 (ix2 k j) = W (ix2 j (hi k)))
  (hb : ∀ (u : Fin 1) (j : Fin 128), V c main_v43 (ix2 u j) = b (ix1 j))
  (hg : ∀ (u : Fin 1) (j : Fin 128), V c main_v44 (ix2 u j) = g (ix1 j))
  (hs : ∀ (u : Fin 1) (j : Fin 128), V c main_v45 (ix2 u j) = s (ix1 j))

section Reads

variable (t : Fin cfg0.N)

/-- Row p of the own-feature block at point t is row 2000·t + p of the features. -/
theorem read_own (p : Fin 2000) (k : Fin 128) (R : Fin 100000) (hR : R.val = t.val * 2000 + p.val) :
    iblk0 V c 0 t (ix2 p k) = V c main_arg0 (ix2 R k) := by
  show V c main_arg0 (((cfg0.win 0).blk t).view.emb (ix2 p k)) = _
  refine congrArg (V c main_arg0) (funext fun a => Fin.ext ?_)
  obtain ⟨e00, e01⟩ := idx0 t
  match a with
  | ⟨0, _⟩ => show win0_0.index t (0 : Fin 2) * 2000 + 1 * p.val = R.val; omega
  | ⟨1, _⟩ => show win0_0.index t (1 : Fin 2) * 128 + 1 * k.val = k.val; omega

/-- Row p of the neighbour-mean block at point t is row 2000·t + p of the neighbour means. -/
theorem read_nbr (p : Fin 2000) (k : Fin 128) (R : Fin 100000) (hR : R.val = t.val * 2000 + p.val) :
    iblk0 V c 1 t (ix2 p k) = V c main_v17 (ix2 R k) := by
  show V c main_v17 (((cfg0.win 1).blk t).view.emb (ix2 p k)) = _
  refine congrArg (V c main_v17) (funext fun a => Fin.ext ?_)
  obtain ⟨e10, e11⟩ := idx1 t
  match a with
  | ⟨0, _⟩ => show win0_1.index t (0 : Fin 2) * 2000 + 1 * p.val = R.val; omega
  | ⟨1, _⟩ => show win0_1.index t (1 : Fin 2) * 128 + 1 * k.val = k.val; omega

include hw1 in
/-- The left weight half's block is the whole transposed half. -/
theorem read_w1 (k j : Fin 128) : iblk0 V c 2 t (ix2 k j) = W (ix2 j (lo k)) := by
  show V c main_v36 (((cfg0.win 2).blk t).view.emb (ix2 k j)) = _
  have e : ((cfg0.win 2).blk t).view.emb (ix2 k j) = ix2 k j := by
    refine funext fun a => Fin.ext ?_
    obtain ⟨e20, e21⟩ := idx2 t
    match a with
    | ⟨0, _⟩ => show win0_2.index t (0 : Fin 2) * 128 + 1 * k.val = k.val; omega
    | ⟨1, _⟩ => show win0_2.index t (1 : Fin 2) * 128 + 1 * j.val = j.val; omega
  rw [e]
  exact hw1 k j

include hw2 in
/-- The right weight half's block is the whole transposed half. -/
theorem read_w2 (k j : Fin 128) : iblk0 V c 3 t (ix2 k j) = W (ix2 j (hi k)) := by
  show V c main_v38 (((cfg0.win 3).blk t).view.emb (ix2 k j)) = _
  have e : ((cfg0.win 3).blk t).view.emb (ix2 k j) = ix2 k j := by
    refine funext fun a => Fin.ext ?_
    obtain ⟨e30, e31⟩ := idx3 t
    match a with
    | ⟨0, _⟩ => show win0_3.index t (0 : Fin 2) * 128 + 1 * k.val = k.val; omega
    | ⟨1, _⟩ => show win0_3.index t (1 : Fin 2) * 128 + 1 * j.val = j.val; omega
  rw [e]
  exact hw2 k j

include hb in
/-- The bias row's block is the whole row. -/
theorem read_bias (j : Fin 128) : iblk0 V c 4 t (ix2 (0 : Fin 1) j) = b (ix1 j) := by
  show V c main_v43 (((cfg0.win 4).blk t).view.emb (ix2 (0 : Fin 1) j)) = _
  have e : ((cfg0.win 4).blk t).view.emb (ix2 (0 : Fin 1) j) = ix2 (0 : Fin 1) j := by
    refine funext fun a => Fin.ext ?_
    obtain ⟨e0, e1⟩ := idx4 t
    match a with
    | ⟨0, _⟩ => show win0_4.index t (0 : Fin 2) * 1 + 1 * 0 = 0; omega
    | ⟨1, _⟩ => show win0_4.index t (1 : Fin 2) * 128 + 1 * j.val = j.val; omega
  rw [e]
  exact hb 0 j

include hg in
/-- The scale row's block is the whole row. -/
theorem read_scale (j : Fin 128) : iblk0 V c 5 t (ix2 (0 : Fin 1) j) = g (ix1 j) := by
  show V c main_v44 (((cfg0.win 5).blk t).view.emb (ix2 (0 : Fin 1) j)) = _
  have e : ((cfg0.win 5).blk t).view.emb (ix2 (0 : Fin 1) j) = ix2 (0 : Fin 1) j := by
    refine funext fun a => Fin.ext ?_
    obtain ⟨e0, e1⟩ := idx5 t
    match a with
    | ⟨0, _⟩ => show win0_5.index t (0 : Fin 2) * 1 + 1 * 0 = 0; omega
    | ⟨1, _⟩ => show win0_5.index t (1 : Fin 2) * 128 + 1 * j.val = j.val; omega
  rw [e]
  exact hg 0 j

include hs in
/-- The shift row's block is the whole row. -/
theorem read_shift (j : Fin 128) : iblk0 V c 6 t (ix2 (0 : Fin 1) j) = s (ix1 j) := by
  show V c main_v45 (((cfg0.win 6).blk t).view.emb (ix2 (0 : Fin 1) j)) = _
  have e : ((cfg0.win 6).blk t).view.emb (ix2 (0 : Fin 1) j) = ix2 (0 : Fin 1) j := by
    refine funext fun a => Fin.ext ?_
    obtain ⟨e0, e1⟩ := idx6 t
    match a with
    | ⟨0, _⟩ => show win0_6.index t (0 : Fin 2) * 1 + 1 * 0 = 0; omega
    | ⟨1, _⟩ => show win0_6.index t (1 : Fin 2) * 128 + 1 * j.val = j.val; omega
  rw [e]
  exact hs 0 j

end Reads

include hw1 hw2 hb hg hs in
/-- WHAT POINT t WRITES BACK is block t of the result function. -/
theorem flushed_eq (t : Fin cfg0.N) :
    (dat0 V c).flushed 7 t
      = ((cfg0.win 7).blk t).view.read (Elt Ideal) (result (V c main_arg0) (V c main_v17) W b g s) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz]
  funext y
  obtain ⟨e70, e71⟩ := idx7 t
  have hN := lt_N t
  have hy0 : (y 0).val < 2000 := (y 0).isLt
  have hy1 : (y 1).val < 128 := (y 1).isLt
  refine ((congrFun (Body.pay0_eq (iblk0 V c 0 t) (iblk0 V c 1 t) (iblk0 V c 2 t) (iblk0 V c 3 t)
      (iblk0 V c 4 t) (iblk0 V c 5 t) (iblk0 V c 6 t)) y).trans
    (Body.blk_at (iblk0 V c 0 t) (iblk0 V c 1 t) (iblk0 V c 2 t) (iblk0 V c 3 t)
      (iblk0 V c 4 t) (iblk0 V c 5 t) (iblk0 V c 6 t)
      (fun j cc => W (ix2 j cc)) (read_w1 V c W hw1 t) (read_w2 V c W hw2 t) y)).trans ?_
  show _ = result (V c main_arg0) (V c main_v17) W b g s (((cfg0.win 7).blk t).view.emb y)
  unfold result
  have hR : ((((cfg0.win 7).blk t).view.emb y) 0).val = t.val * 2000 + (y 0).val := by
    show win0_7.index t (0 : Fin 2) * 2000 + 1 * (y 0).val = _; omega
  have hC : (((cfg0.win 7).blk t).view.emb y) 1 = y 1 := Fin.ext (by
    show win0_7.index t (1 : Fin 2) * 128 + 1 * (y 1).val = (y 1).val; omega)
  rw [hC]
  have h0 : (fun k => iblk0 V c 0 t (ix2 (y 0) k)) = fun k => V c main_arg0 (ix2 ((((cfg0.win 7).blk t).view.emb y) 0) k) :=
    funext fun k => read_own V c t (y 0) k ((((cfg0.win 7).blk t).view.emb y) 0) hR
  have h1 : (fun k => iblk0 V c 1 t (ix2 (y 0) k)) = fun k => V c main_v17 (ix2 ((((cfg0.win 7).blk t).view.emb y) 0) k) :=
    funext fun k => read_nbr V c t (y 0) k ((((cfg0.win 7).blk t).view.emb y) 0) hR
  have h4 : (fun j => iblk0 V c 4 t (ix2 (0 : Fin 1) j)) = fun j => b (ix1 j) := funext fun j => read_bias V c b hb t j
  have h5 : (fun j => iblk0 V c 5 t (ix2 (0 : Fin 1) j)) = fun j => g (ix1 j) := funext fun j => read_scale V c g hg t j
  have h6 : (fun j => iblk0 V c 6 t (ix2 (0 : Fin 1) j)) = fun j => s (ix1 j) := funext fun j => read_shift V c s hs t j
  rw [h0, h1, h4, h5, h6]

/-- An index of the result array is in point t's block iff each coordinate is in the block's range on its axis. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v46).slice (win0_7.rect t)).set ↔ _
  rw [View.set_slice_whole, Rect.mem_set_unit]
  exact Iff.rfl

/-- Every index of the result array is in some point's block: row r is in block r / 2000. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_7 _, ?_⟩
  rw [mem_blk]
  obtain ⟨e70, e71⟩ := idx7 (⟨(i 0).val / 2000, by rw [hN]; omega⟩ : Fin cfg0.N)
  have e70' : win0_7.index (⟨(i 0).val / 2000, by rw [hN]; omega⟩ : Fin cfg0.N) (0 : Fin 2) = (i 0).val / 2000 := e70
  intro a
  match a with
  | ⟨0, _⟩ =>
    show win0_7.index _ (0 : Fin 2) * 2000 ≤ (i 0).val ∧ (i 0).val < win0_7.index _ (0 : Fin 2) * 2000 + 2000
    rw [e70']; omega
  | ⟨1, _⟩ =>
    show win0_7.index _ (1 : Fin 2) * 128 ≤ (i 1).val ∧ (i 1).val < win0_7.index _ (1 : Fin 2) * 128 + 128
    rw [e71]; omega

include hw1 hw2 hb hg hs in
/-- THE RESULT ARRAY after the kernel's write-backs is the result function of the entry arrays. -/
theorem final : (dat0 V c).arrAt 7 cfg0.N = result (V c main_arg0) (V c main_v17) W b g s :=
  (dat0 V c).arrAt_eq_of_cover 7 (result (V c main_arg0) (V c main_v17) W b g s)
    (fun t _ => flushed_eq V c W b g s hw1 hw2 hb hg hs t) cover

end Cert.KernelIdeal.JobBlocks

end
-- ==== Proof.MachBlocks.lean ====
/-
  The array the second fused kernel's write-backs leave, as one function of the arrays it finds at its entry.

  Grid point t takes rows 2000·t … 2000·t + 1999 of the machine features and of their neighbour means, the whole two
  weight halves and the three 1 × 128 rows, and writes back rows 2000·t … 2000·t + 1999 of the result. Entry (p, q) of
  what it writes is the layer's row (Spec.lean) of row 2000·t + p of the two arrays at column q — one function of the
  array index, the same at every grid point —; the 10000 / 2000 = 5 blocks tile the 10000 × 128 result, so the result array
  ends holding that function everywhere. Stated for any contents V of the buffers at the kernel's entry whose weight
  halves are the two transposed halves of a 128 × 256 array and whose 1 × 128 rows are three 128-vectors.
-/
import proofs.«103226_j88527865905575_1_alg».proof.Proof.Gen.KernelIdeal.Frame
import proofs.«103226_j88527865905575_1_alg».proof.Proof.Body
import Idealize.ShloMosaic.Lib.Pipeline.Value

set_option maxRecDepth 16384

noncomputable section

namespace Cert.KernelIdeal.MachBlocks

open Cert.KernelIdeal Cert.KernelIdeal.Gen Idealize.ShloMosaic Idealize.ShloMosaic.TcCoe Idealize.SL.Sem
open Idealize.ShloMosaic.ValueIdx Cert.SageLayer
open Idealize.ShloMosaic.Pipeline (Dat Cfg Window)

theorem hz : (![0, 0] : Fin 2 → Nat) = fun _ => 0 := funext fun a => by fin_cases a <;> rfl

/-- THE RESULT ARRAY as a function of the own features A, the neighbour means B, the weight W and the bias, scale and
    shift vectors: at (r, q) the layer's row of A's row r and B's row r, at column q. -/
def result (A B : S10000x128.Idx → EReal) (W : S128x256.Idx → EReal) (b g s : S128.Idx → EReal) : S10000x128.Idx → EReal := fun i =>
  row (fun k => A (ix2 (i 0) k)) (fun k => B (ix2 (i 0) k)) (fun j cc => W (ix2 j cc))
    (fun j => b (ix1 j)) (fun j => g (ix1 j)) (fun j => s (ix1 j)) (i 1)

/-- The printed index maps over the grid, one window at a time: the two row-blocked inputs and the output are at block
    row t, every other window at block (0, 0); and the grid has 5 points. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem lt_N (t : Fin cfg1.N) : t.val < 5 := by
  have hN : cfg1.N = 5 := N_1
  have := t.isLt
  omega

variable (V : (c : Dev nD) → (b : Ref sig .tc) → Buf (Elt Ideal) ((c : Thread nD τ).loc b)) (c : Dev nD)
  (W : S128x256.Idx → EReal) (b g s : S128.Idx → EReal)
  (hw1 : ∀ k j : Fin 128, V c main_v40 (ix2 k j) = W (ix2 j (lo k)))
  (hw2 : ∀ k j : Fin 128, V c main_v42 (ix2 k j) = W (ix2 j (hi k)))
  (hb : ∀ (u : Fin 1) (j : Fin 128), V c main_v47 (ix2 u j) = b (ix1 j))
  (hg : ∀ (u : Fin 1) (j : Fin 128), V c main_v48 (ix2 u j) = g (ix1 j))
  (hs : ∀ (u : Fin 1) (j : Fin 128), V c main_v49 (ix2 u j) = s (ix1 j))

section Reads

variable (t : Fin cfg1.N)

/-- Row p of the own-feature block at point t is row 2000·t + p of the features. -/
theorem read_own (p : Fin 2000) (k : Fin 128) (R : Fin 10000) (hR : R.val = t.val * 2000 + p.val) :
    iblk1 V c 0 t (ix2 p k) = V c main_arg1 (ix2 R k) := by
  show V c main_arg1 (((cfg1.win 0).blk t).view.emb (ix2 p k)) = _
  refine congrArg (V c main_arg1) (funext fun a => Fin.ext ?_)
  obtain ⟨e00, e01⟩ := idx0 t
  match a with
  | ⟨0, _⟩ => show win1_0.index t (0 : Fin 2) * 2000 + 1 * p.val = R.val; omega
  | ⟨1, _⟩ => show win1_0.index t (1 : Fin 2) * 128 + 1 * k.val = k.val; omega

/-- Row p of the neighbour-mean block at point t is row 2000·t + p of the neighbour means. -/
theorem read_nbr (p : Fin 2000) (k : Fin 128) (R : Fin 10000) (hR : R.val = t.val * 2000 + p.val) :
    iblk1 V c 1 t (ix2 p k) = V c main_v34 (ix2 R k) := by
  show V c main_v34 (((cfg1.win 1).blk t).view.emb (ix2 p k)) = _
  refine congrArg (V c main_v34) (funext fun a => Fin.ext ?_)
  obtain ⟨e10, e11⟩ := idx1 t
  match a with
  | ⟨0, _⟩ => show win1_1.index t (0 : Fin 2) * 2000 + 1 * p.val = R.val; omega
  | ⟨1, _⟩ => show win1_1.index t (1 : Fin 2) * 128 + 1 * k.val = k.val; omega

include hw1 in
/-- The left weight half's block is the whole transposed half. -/
theorem read_w1 (k j : Fin 128) : iblk1 V c 2 t (ix2 k j) = W (ix2 j (lo k)) := by
  show V c main_v40 (((cfg1.win 2).blk t).view.emb (ix2 k j)) = _
  have e : ((cfg1.win 2).blk t).view.emb (ix2 k j) = ix2 k j := by
    refine funext fun a => Fin.ext ?_
    obtain ⟨e20, e21⟩ := idx2 t
    match a with
    | ⟨0, _⟩ => show win1_2.index t (0 : Fin 2) * 128 + 1 * k.val = k.val; omega
    | ⟨1, _⟩ => show win1_2.index t (1 : Fin 2) * 128 + 1 * j.val = j.val; omega
  rw [e]
  exact hw1 k j

include hw2 in
/-- The right weight half's block is the whole transposed half. -/
theorem read_w2 (k j : Fin 128) : iblk1 V c 3 t (ix2 k j) = W (ix2 j (hi k)) := by
  show V c main_v42 (((cfg1.win 3).blk t).view.emb (ix2 k j)) = _
  have e : ((cfg1.win 3).blk t).view.emb (ix2 k j) = ix2 k j := by
    refine funext fun a => Fin.ext ?_
    obtain ⟨e30, e31⟩ := idx3 t
    match a with
    | ⟨0, _⟩ => show win1_3.index t (0 : Fin 2) * 128 + 1 * k.val = k.val; omega
    | ⟨1, _⟩ => show win1_3.index t (1 : Fin 2) * 128 + 1 * j.val = j.val; omega
  rw [e]
  exact hw2 k j

include hb in
/-- The bias row's block is the whole row. -/
theorem read_bias (j : Fin 128) : iblk1 V c 4 t (ix2 (0 : Fin 1) j) = b (ix1 j) := by
  show V c main_v47 (((cfg1.win 4).blk t).view.emb (ix2 (0 : Fin 1) j)) = _
  have e : ((cfg1.win 4).blk t).view.emb (ix2 (0 : Fin 1) j) = ix2 (0 : Fin 1) j := by
    refine funext fun a => Fin.ext ?_
    obtain ⟨e0, e1⟩ := idx4 t
    match a with
    | ⟨0, _⟩ => show win1_4.index t (0 : Fin 2) * 1 + 1 * 0 = 0; omega
    | ⟨1, _⟩ => show win1_4.index t (1 : Fin 2) * 128 + 1 * j.val = j.val; omega
  rw [e]
  exact hb 0 j

include hg in
/-- The scale row's block is the whole row. -/
theorem read_scale (j : Fin 128) : iblk1 V c 5 t (ix2 (0 : Fin 1) j) = g (ix1 j) := by
  show V c main_v48 (((cfg1.win 5).blk t).view.emb (ix2 (0 : Fin 1) j)) = _
  have e : ((cfg1.win 5).blk t).view.emb (ix2 (0 : Fin 1) j) = ix2 (0 : Fin 1) j := by
    refine funext fun a => Fin.ext ?_
    obtain ⟨e0, e1⟩ := idx5 t
    match a with
    | ⟨0, _⟩ => show win1_5.index t (0 : Fin 2) * 1 + 1 * 0 = 0; omega
    | ⟨1, _⟩ => show win1_5.index t (1 : Fin 2) * 128 + 1 * j.val = j.val; omega
  rw [e]
  exact hg 0 j

include hs in
/-- The shift row's block is the whole row. -/
theorem read_shift (j : Fin 128) : iblk1 V c 6 t (ix2 (0 : Fin 1) j) = s (ix1 j) := by
  show V c main_v49 (((cfg1.win 6).blk t).view.emb (ix2 (0 : Fin 1) j)) = _
  have e : ((cfg1.win 6).blk t).view.emb (ix2 (0 : Fin 1) j) = ix2 (0 : Fin 1) j := by
    refine funext fun a => Fin.ext ?_
    obtain ⟨e0, e1⟩ := idx6 t
    match a with
    | ⟨0, _⟩ => show win1_6.index t (0 : Fin 2) * 1 + 1 * 0 = 0; omega
    | ⟨1, _⟩ => show win1_6.index t (1 : Fin 2) * 128 + 1 * j.val = j.val; omega
  rw [e]
  exact hs 0 j

end Reads

include hw1 hw2 hb hg hs in
/-- WHAT POINT t WRITES BACK is block t of the result function. -/
theorem flushed_eq (t : Fin cfg1.N) :
    (dat1 V c).flushed 7 t
      = ((cfg1.win 7).blk t).view.read (Elt Ideal) (result (V c main_arg1) (V c main_v34) W b g s) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  funext y
  obtain ⟨e70, e71⟩ := idx7 t
  have hN := lt_N t
  have hy0 : (y 0).val < 2000 := (y 0).isLt
  have hy1 : (y 1).val < 128 := (y 1).isLt
  refine ((congrFun (Body.pay1_eq (iblk1 V c 0 t) (iblk1 V c 1 t) (iblk1 V c 2 t) (iblk1 V c 3 t)
      (iblk1 V c 4 t) (iblk1 V c 5 t) (iblk1 V c 6 t)) y).trans
    (Body.blk_at (iblk1 V c 0 t) (iblk1 V c 1 t) (iblk1 V c 2 t) (iblk1 V c 3 t)
      (iblk1 V c 4 t) (iblk1 V c 5 t) (iblk1 V c 6 t)
      (fun j cc => W (ix2 j cc)) (read_w1 V c W hw1 t) (read_w2 V c W hw2 t) y)).trans ?_
  show _ = result (V c main_arg1) (V c main_v34) W b g s (((cfg1.win 7).blk t).view.emb y)
  unfold result
  have hR : ((((cfg1.win 7).blk t).view.emb y) 0).val = t.val * 2000 + (y 0).val := by
    show win1_7.index t (0 : Fin 2) * 2000 + 1 * (y 0).val = _; omega
  have hC : (((cfg1.win 7).blk t).view.emb y) 1 = y 1 := Fin.ext (by
    show win1_7.index t (1 : Fin 2) * 128 + 1 * (y 1).val = (y 1).val; omega)
  rw [hC]
  have h0 : (fun k => iblk1 V c 0 t (ix2 (y 0) k)) = fun k => V c main_arg1 (ix2 ((((cfg1.win 7).blk t).view.emb y) 0) k) :=
    funext fun k => read_own V c t (y 0) k ((((cfg1.win 7).blk t).view.emb y) 0) hR
  have h1 : (fun k => iblk1 V c 1 t (ix2 (y 0) k)) = fun k => V c main_v34 (ix2 ((((cfg1.win 7).blk t).view.emb y) 0) k) :=
    funext fun k => read_nbr V c t (y 0) k ((((cfg1.win 7).blk t).view.emb y) 0) hR
  have h4 : (fun j => iblk1 V c 4 t (ix2 (0 : Fin 1) j)) = fun j => b (ix1 j) := funext fun j => read_bias V c b hb t j
  have h5 : (fun j => iblk1 V c 5 t (ix2 (0 : Fin 1) j)) = fun j => g (ix1 j) := funext fun j => read_scale V c g hg t j
  have h6 : (fun j => iblk1 V c 6 t (ix2 (0 : Fin 1) j)) = fun j => s (ix1 j) := funext fun j => read_shift V c s hs t j
  rw [h0, h1, h4, h5, h6]

/-- An index of the result array is in point t's block iff each coordinate is in the block's range on its axis. -/
theorem mem_blk (t : Fin cfg1.N) (i : S10000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v50).slice (win1_7.rect t)).set ↔ _
  rw [View.set_slice_whole, Rect.mem_set_unit]
  exact Iff.rfl

/-- Every index of the result array is in some point's block: row r is in block r / 2000. -/
theorem cover (i : S10000x128.Idx) : ∃ t : Fin cfg1.N, (cfg1.win 7).flush t = true ∧ i ∈ ((cfg1.win 7).blk t).view.set := by
  have hi0 : (i 0).val < 10000 := (i 0).isLt
  have hi1 : (i 1).val < 128 := (i 1).isLt
  have hN : cfg1.N = 5 := N_1
  refine ⟨⟨(i 0).val / 2000, by rw [hN]; omega⟩, flush1_7 _, ?_⟩
  rw [mem_blk]
  obtain ⟨e70, e71⟩ := idx7 (⟨(i 0).val / 2000, by rw [hN]; omega⟩ : Fin cfg1.N)
  have e70' : win1_7.index (⟨(i 0).val / 2000, by rw [hN]; omega⟩ : Fin cfg1.N) (0 : Fin 2) = (i 0).val / 2000 := e70
  intro a
  match a with
  | ⟨0, _⟩ =>
    show win1_7.index _ (0 : Fin 2) * 2000 ≤ (i 0).val ∧ (i 0).val < win1_7.index _ (0 : Fin 2) * 2000 + 2000
    rw [e70']; omega
  | ⟨1, _⟩ =>
    show win1_7.index _ (1 : Fin 2) * 128 ≤ (i 1).val ∧ (i 1).val < win1_7.index _ (1 : Fin 2) * 128 + 128
    rw [e71]; omega

include hw1 hw2 hb hg hs in
/-- THE RESULT ARRAY after the kernel's write-backs is the result function of the entry arrays. -/
theorem final : (dat1 V c).arrAt 7 cfg1.N = result (V c main_arg1) (V c main_v34) W b g s :=
  (dat1 V c).arrAt_eq_of_cover 7 (result (V c main_arg1) (V c main_v34) W b g s)
    (fun t _ => flushed_eq V c W b g s hw1 hw2 hb hg hs t) cover

end Cert.KernelIdeal.MachBlocks

end
-- ==== Proof.LibConcatDot.lean ====
/-
  A product against two arrays laid side by side is the sum of two products.

  Let A and B be M×L arrays, [A | B] their concatenation along axis 1 (an M×K array with K = L + L), and W a K×N weight
  whose upper half W₀ = rows 0 … L−1 and lower half W₁ = rows L … K−1 are taken as unit-stride slices. Then at every
  output index
      Σ_{k<K} [A | B](a,k) · W(k,c) = Σ_{k<L} A(a,k) · W₀(k,c) + Σ_{k<L} B(a,k) · W₁(k,c) :
  the sum over k < L + L splits at L, the first L columns of the concatenation are A's, the last L are B's, and row k of a
  half is row k (resp. L + k) of W. It is a regrouping of one finite sum, valid on the extended reals as on any
  commutative additive monoid with a product; nothing has to be finite.
-/
import Idealize.ShloMosaic.PureOps.Ideal.Laws
import Idealize.ShloMosaic.Lib.ValueIdx
import Idealize.ShloMosaic.Lib.Pipeline.Value

noncomputable section

namespace Cert.LibConcatDot

open Idealize.ShloMosaic Idealize.ShloMosaic.ValueIdx

variable (M L N K : Nat) {φ : FTy}

/-- Column k < L of the concatenation is column k of the first piece. -/
theorem concat_left (hK : K = L + L) (A B : (⟨2, ![M, L]⟩ : Shape).Idx → EReal)
    (hcat : Shape.Concatenates [(⟨2, ![M, L]⟩ : Shape), ⟨2, ![M, L]⟩] ⟨2, ![M, K]⟩ (1 : Fin 2)) (a : Fin M) (k : Fin L) (k' : Fin K)
    (hk : k'.val = k.val) :
    concatenate ⟨2, ![M, K]⟩ (1 : Fin 2) [⟨⟨2, ![M, L]⟩, A⟩, ⟨⟨2, ![M, L]⟩, B⟩] hcat (ix2 a k') = A (ix2 a k) :=
  concatenate_pair_apply_left (1 : Fin 2) A B hcat (ix2 a k') rfl (ix2 a k) fun b => by
    match b with
    | ⟨0, _⟩ => rfl
    | ⟨1, _⟩ => exact hk.symm

/-- Column L + k of the concatenation is column k of the second piece. -/
theorem concat_right (hK : K = L + L) (A B : (⟨2, ![M, L]⟩ : Shape).Idx → EReal)
    (hcat : Shape.Concatenates [(⟨2, ![M, L]⟩ : Shape), ⟨2, ![M, L]⟩] ⟨2, ![M, K]⟩ (1 : Fin 2)) (a : Fin M) (k : Fin L) (k' : Fin K)
    (hk : k'.val = L + k.val) :
    concatenate ⟨2, ![M, K]⟩ (1 : Fin 2) [⟨⟨2, ![M, L]⟩, A⟩, ⟨⟨2, ![M, L]⟩, B⟩] hcat (ix2 a k') = B (ix2 a k) :=
  concatenate_pair_apply_right (1 : Fin 2) A B hcat (ix2 a k') rfl rfl (ix2 a k)
    (fun b => by
      match b with
      | ⟨0, _⟩ => exact fun _ => rfl
      | ⟨1, _⟩ => exact fun h => absurd (Fin.ext rfl) h)
    (by show k.val + L = k'.val; omega)

/-- Row k of the upper half of the weight is row k of the weight. -/
theorem slice_upper (W : (⟨2, ![K, N]⟩ : Shape).Idx → EReal) (h0 : (⟨2, ![K, N]⟩ : Shape).Slices ![0, 0] ⟨2, ![L, N]⟩)
    (k : Fin L) (k' : Fin K) (hk : k'.val = k.val) (c : Fin N) :
    extractStridedSlice ⟨2, ![L, N]⟩ ![0, 0] W h0 (ix2 k c) = W (ix2 k' c) :=
  extractStridedSlice_apply ![0, 0] W h0 (ix2 k c) (ix2 k' c) fun ax => by
    match ax with
    | ⟨0, _⟩ => show k'.val = 0 + k.val; omega
    | ⟨1, _⟩ => show c.val = 0 + c.val; omega

/-- Row k of the lower half of the weight is row L + k of the weight. -/
theorem slice_lower (W : (⟨2, ![K, N]⟩ : Shape).Idx → EReal) (h1 : (⟨2, ![K, N]⟩ : Shape).Slices ![L, 0] ⟨2, ![L, N]⟩)
    (k : Fin L) (k' : Fin K) (hk : k'.val = L + k.val) (c : Fin N) :
    extractStridedSlice ⟨2, ![L, N]⟩ ![L, 0] W h1 (ix2 k c) = W (ix2 k' c) :=
  extractStridedSlice_apply ![L, 0] W h1 (ix2 k c) (ix2 k' c) fun ax => by
    match ax with
    | ⟨0, _⟩ => show k'.val = L + k.val; exact hk
    | ⟨1, _⟩ => show c.val = 0 + c.val; omega

/-- The sum over the K = L + L columns, split at L. -/
theorem sum_concat_split (hK : K = L + L) (A B : (⟨2, ![M, L]⟩ : Shape).Idx → EReal) (W : (⟨2, ![K, N]⟩ : Shape).Idx → EReal)
    (hcat : Shape.Concatenates [(⟨2, ![M, L]⟩ : Shape), ⟨2, ![M, L]⟩] ⟨2, ![M, K]⟩ (1 : Fin 2))
    (h0 : (⟨2, ![K, N]⟩ : Shape).Slices ![0, 0] ⟨2, ![L, N]⟩) (h1 : (⟨2, ![K, N]⟩ : Shape).Slices ![L, 0] ⟨2, ![L, N]⟩)
    (a : Fin M) (c : Fin N) :
    ∑ k : Fin K, concatenate ⟨2, ![M, K]⟩ (1 : Fin 2) [⟨⟨2, ![M, L]⟩, A⟩, ⟨⟨2, ![M, L]⟩, B⟩] hcat (ix2 a k) * W (ix2 k c)
      = ∑ k : Fin L, A (ix2 a k) * extractStridedSlice ⟨2, ![L, N]⟩ ![0, 0] W h0 (ix2 k c)
        + ∑ k : Fin L, B (ix2 a k) * extractStridedSlice ⟨2, ![L, N]⟩ ![L, 0] W h1 (ix2 k c) := by
  subst hK
  rw [Fin.sum_univ_add]
  refine congr (congrArg HAdd.hAdd (Finset.sum_congr rfl fun k _ => ?_)) (Finset.sum_congr rfl fun k _ => ?_)
  · rw [concat_left M L (L + L) rfl A B hcat a k (Fin.castAdd L k) rfl,
      slice_upper L N (L + L) W h0 k (Fin.castAdd L k) rfl c]
  · rw [concat_right M L (L + L) rfl A B hcat a k (Fin.natAdd L k) rfl,
      slice_lower L N (L + L) W h1 k (Fin.natAdd L k) rfl c]

end Cert.LibConcatDot

end
-- ==== Proof.RefJob.lean ====
/-
  The reference's first result, entry by entry: the layer's row (Spec.lean) of a job's own row and of its neighbour mean.

  The reference lays the 100000 × 128 job features beside the 100000 × 128 neighbour means, multiplies the 100000 × 256
  array by the transposed 128 × 256 weight, adds the bias, cuts off at 0 and normalises each row. Read at (r, q): the sum
  over the 256 joined columns splits at 128 into the job's row against the left half of the weight's row q and the
  neighbour mean's row against its right half; the host's row sums start from 0 and add the 128 entries of row r.
-/
import proofs.«103226_j88527865905575_1_alg».proof.Proof.Gen.ReferenceIdeal.Read
import proofs.«103226_j88527865905575_1_alg».proof.Proof.Spec
import proofs.«103226_j88527865905575_1_alg».proof.Proof.LibConcatDot
import Idealize.ShloMosaic.Lib.ValueLayout

noncomputable section

namespace Cert.ReferenceIdeal.JobRow

open Cert.ReferenceIdeal Cert.ReferenceIdeal.Gen Cert.ReferenceIdeal.Read Idealize.ShloMosaic Idealize.ShloMosaic.ValueIdx Cert.SageLayer

variable (x0 : (⟨S100000x128, .f32⟩ : BufTy).Contents (Elt Ideal)) (x1 : (⟨S10000x128, .f32⟩ : BufTy).Contents (Elt Ideal))
  (x2 : (⟨S128x256, .f32⟩ : BufTy).Contents (Elt Ideal)) (x3 x6 x7 : (⟨S128, .f32⟩ : BufTy).Contents (Elt Ideal))
  (x10 x11 : (⟨S1600000, .i32⟩ : BufTy).Contents (Elt Ideal))

/-- The job's own row. -/
abbrev own (r : Fin 100000) : Fin 128 → EReal := fun k => x0 (ix2 r k)
/-- The row of the mean over the job's neighbours. -/
abbrev nbr (r : Fin 100000) : Fin 128 → EReal := fun k => val_main_v17 (F := Ideal) x1 x10 x11 (ix2 r k)
/-- The weight, by output column and joined input column. -/
abbrev wt : Fin 128 → Fin 256 → EReal := fun j c => x2 (ix2 j c)

/-- Entry (r, l) before the cut-off. -/
theorem lin_apply (r : Fin 100000) (l : Fin 128) :
    val_main_v40 (F := Ideal) x0 x1 x2 x3 x10 x11 (ix2 r l)
      = lin (own x0 r) (nbr x1 x10 x11 r) (wt x2) (fun j => x3 (ix1 j)) l := by
  rw [val_main_v40_apply, val_main_v37_apply, val_main_v39_apply, val_main_v38_apply, sum_halves, Ideal.addf_def]
  unfold lin
  refine congr (congrArg HAdd.hAdd (congr (congrArg HAdd.hAdd (Finset.sum_congr rfl fun k _ => ?_)) (Finset.sum_congr rfl fun k _ => ?_))) ?_
  · rw [val_main_v36_apply]
    refine congr (congrArg HMul.hMul ?_) (congrArg x2 (funext fun a => Fin.ext (by match a with | ⟨0, _⟩ => rfl | ⟨1, _⟩ => rfl)))
    have e : lidx_main_v37 (ix2 r l) (lo k) = ix2 r (lo k) :=
      funext fun a => Fin.ext (by match a with | ⟨0, _⟩ => rfl | ⟨1, _⟩ => rfl)
    rw [e]; unfold val_main_v35
    exact Cert.LibConcatDot.concat_left 100000 128 256 rfl x0 (val_main_v17 (F := Ideal) x1 x10 x11) _ r k (lo k) rfl
  · rw [val_main_v36_apply]
    refine congr (congrArg HMul.hMul ?_) (congrArg x2 (funext fun a => Fin.ext (by match a with | ⟨0, _⟩ => rfl | ⟨1, _⟩ => rfl)))
    have e : lidx_main_v37 (ix2 r l) (hi k) = ix2 r (hi k) :=
      funext fun a => Fin.ext (by match a with | ⟨0, _⟩ => rfl | ⟨1, _⟩ => rfl)
    rw [e]; unfold val_main_v35
    exact Cert.LibConcatDot.concat_right 100000 128 256 rfl x0 (val_main_v17 (F := Ideal) x1 x10 x11) _ r k (hi k) rfl
  · exact congrArg x3 (funext fun a => Fin.ext (by match a with | ⟨0, _⟩ => rfl))

/-- The cut-off row r. -/
abbrev act (r : Fin 100000) : Fin 128 → EReal :=
  fun l => cut (lin (own x0 r) (nbr x1 x10 x11 r) (wt x2) (fun j => x3 (ix1 j)) l)

/-- Entry (r, l) after the cut-off. -/
theorem cut_apply (r : Fin 100000) (l : Fin 128) :
    val_main_v41 (F := Ideal) x0 x1 x2 x3 x10 x11 (ix2 r l) = act x0 x1 x2 x3 x10 x11 r l := by
  rw [val_main_v41_apply, val_main_call2_v0_apply, val_main_call2_cst_apply, lin_apply, Ideal.maximumf_def, Ideal.ofBits_def]
  rfl

/-- The column of row means at row r: the host's sum starts from 0 and adds the row's 128 entries. -/
theorem mean_apply (r : Fin 100000) (u : Fin 1) :
    val_main_v45 (F := Ideal) x0 x1 x2 x3 x10 x11 (ix2 r u) = mean (act x0 x1 x2 x3 x10 x11 r) := by
  rw [val_main_v45_apply, val_main_v43_apply, val_main_v42_apply, val_main_v44_apply, val_main_cst_10_apply, val_main_cst_9_apply]
  simp only [Ideal.hostDivf_def, Ideal.ofBits_def, Ideal.ofBits_zero_f32, zero_add]
  unfold mean
  refine congrArg (Ideal.div · _) (Finset.sum_congr rfl fun k _ => ?_)
  have e : idx_main_v42 (idx_main_v43 (ix2 r u)) k = ix2 r k :=
    funext fun a => Fin.ext (by match a with | ⟨0, _⟩ => rfl | ⟨1, _⟩ => rfl)
  rw [e]
  exact cut_apply x0 x1 x2 x3 x10 x11 r k

/-- The row centred on its mean (the copy the variance is taken of). -/
theorem centred_apply (r : Fin 100000) (l : Fin 128) :
    val_main_v47 (F := Ideal) x0 x1 x2 x3 x10 x11 (ix2 r l)
      = act x0 x1 x2 x3 x10 x11 r l - mean (act x0 x1 x2 x3 x10 x11 r) := by
  have e : idx_main_v46 (ix2 r l) = ix2 r (0 : Fin 1) :=
    funext fun a => Fin.ext (by match a with | ⟨0, _⟩ => rfl | ⟨1, _⟩ => rfl)
  rw [val_main_v47_apply, val_main_v46_apply, Ideal.subf_def, cut_apply, e, mean_apply]

/-- The row centred on its mean (the copy that is scaled). -/
theorem centred'_apply (r : Fin 100000) (l : Fin 128) :
    val_main_v54 (F := Ideal) x0 x1 x2 x3 x10 x11 (ix2 r l)
      = act x0 x1 x2 x3 x10 x11 r l - mean (act x0 x1 x2 x3 x10 x11 r) := by
  have e : idx_main_v53 (ix2 r l) = ix2 r (0 : Fin 1) :=
    funext fun a => Fin.ext (by match a with | ⟨0, _⟩ => rfl | ⟨1, _⟩ => rfl)
  rw [val_main_v54_apply, val_main_v53_apply, Ideal.subf_def, cut_apply, e, mean_apply]

/-- The column of row variances at row r. -/
theorem var_apply (r : Fin 100000) (u : Fin 1) :
    val_main_v52 (F := Ideal) x0 x1 x2 x3 x10 x11 (ix2 r u)
      = mean (fun l => (act x0 x1 x2 x3 x10 x11 r l - mean (act x0 x1 x2 x3 x10 x11 r))
          * (act x0 x1 x2 x3 x10 x11 r l - mean (act x0 x1 x2 x3 x10 x11 r))) := by
  rw [val_main_v52_apply, val_main_v50_apply, val_main_v49_apply, val_main_v51_apply, val_main_cst_12_apply, val_main_cst_11_apply]
  simp only [Ideal.hostDivf_def, Ideal.ofBits_def, Ideal.ofBits_zero_f32, zero_add]
  show Ideal.div _ _ = Ideal.div _ _
  refine congrArg (Ideal.div · _) (Finset.sum_congr rfl fun k _ => ?_)
  have e : idx_main_v49 (idx_main_v50 (ix2 r u)) k = ix2 r k :=
    funext fun a => Fin.ext (by match a with | ⟨0, _⟩ => rfl | ⟨1, _⟩ => rfl)
  rw [e, val_main_v48_apply, Ideal.mulf_def, centred_apply]

/-- THE REFERENCE'S FIRST RESULT, entry by entry. -/
theorem result_apply (r : Fin 100000) (q : Fin 128) :
    val_main_v65 (F := Ideal) x0 x1 x2 x3 x6 x7 x10 x11 (ix2 r q)
      = row (own x0 r) (nbr x1 x10 x11 r) (wt x2) (fun j => x3 (ix1 j)) (fun j => x6 (ix1 j)) (fun j => x7 (ix1 j)) q := by
  have e58 : idx_main_v58 (ix2 r q) = ix2 r (0 : Fin 1) :=
    funext fun a => Fin.ext (by match a with | ⟨0, _⟩ => rfl | ⟨1, _⟩ => rfl)
  have e6 : idx_main_v60 (idx_main_v61 (ix2 r q)) = ix1 q :=
    funext fun a => Fin.ext (by match a with | ⟨0, _⟩ => rfl)
  have e7 : idx_main_v63 (idx_main_v64 (ix2 r q)) = ix1 q :=
    funext fun a => Fin.ext (by match a with | ⟨0, _⟩ => rfl)
  rw [val_main_v65_apply, val_main_v62_apply, val_main_v59_apply, val_main_v58_apply, val_main_v57_apply, val_main_v56_apply,
    val_main_v55_apply, val_main_cst_13_apply, val_main_v61_apply, val_main_v60_apply, val_main_v64_apply, val_main_v63_apply,
    e58, e6, e7, centred'_apply, var_apply]
  simp only [Ideal.addf_def, Ideal.mulf_def, Ideal.hostUnary_rsqrt_def, Ideal.ofBits_def]
  rfl

end Cert.ReferenceIdeal.JobRow

end
-- ==== Proof.RefMach.lean ====
/-
  The reference's second result, entry by entry: the layer's row (Spec.lean) of a machine's own row and of its neighbour mean.

  The reference lays the 10000 × 128 machine features beside the 10000 × 128 neighbour means, multiplies the 10000 × 256
  array by the transposed 128 × 256 weight, adds the bias, cuts off at 0 and normalises each row. Read at (r, q): the sum
  over the 256 joined columns splits at 128 into the machine's row against the left half of the weight's row q and the
  neighbour mean's row against its right half; the host's row sums start from 0 and add the 128 entries of row r.
-/
import proofs.«103226_j88527865905575_1_alg».proof.Proof.Gen.ReferenceIdeal.Read
import proofs.«103226_j88527865905575_1_alg».proof.Proof.Spec
import proofs.«103226_j88527865905575_1_alg».proof.Proof.LibConcatDot
import Idealize.ShloMosaic.Lib.ValueLayout

noncomputable section

namespace Cert.ReferenceIdeal.MachRow

open Cert.ReferenceIdeal Cert.ReferenceIdeal.Gen Cert.ReferenceIdeal.Read Idealize.ShloMosaic Idealize.ShloMosaic.ValueIdx Cert.SageLayer

variable (x0 : (⟨S100000x128, .f32⟩ : BufTy).Contents (Elt Ideal)) (x1 : (⟨S10000x128, .f32⟩ : BufTy).Contents (Elt Ideal))
  (x4 : (⟨S128x256, .f32⟩ : BufTy).Contents (Elt Ideal)) (x5 x8 x9 : (⟨S128, .f32⟩ : BufTy).Contents (Elt Ideal))
  (x10 x11 : (⟨S1600000, .i32⟩ : BufTy).Contents (Elt Ideal))

/-- The machine's own row. -/
abbrev own (r : Fin 10000) : Fin 128 → EReal := fun k => x1 (ix2 r k)
/-- The row of the mean over the machine's neighbours. -/
abbrev nbr (r : Fin 10000) : Fin 128 → EReal := fun k => val_main_v34 (F := Ideal) x0 x10 x11 (ix2 r k)
/-- The weight, by output column and joined input column. -/
abbrev wt : Fin 128 → Fin 256 → EReal := fun j c => x4 (ix2 j c)

/-- Entry (r, l) before the cut-off. -/
theorem lin_apply (r : Fin 10000) (l : Fin 128) :
    val_main_v71 (F := Ideal) x0 x1 x4 x5 x10 x11 (ix2 r l)
      = lin (own x1 r) (nbr x0 x10 x11 r) (wt x4) (fun j => x5 (ix1 j)) l := by
  rw [val_main_v71_apply, val_main_v68_apply, val_main_v70_apply, val_main_v69_apply, sum_halves, Ideal.addf_def]
  unfold lin
  refine congr (congrArg HAdd.hAdd (congr (congrArg HAdd.hAdd (Finset.sum_congr rfl fun k _ => ?_)) (Finset.sum_congr rfl fun k _ => ?_))) ?_
  · rw [val_main_v67_apply]
    refine congr (congrArg HMul.hMul ?_) (congrArg x4 (funext fun a => Fin.ext (by match a with | ⟨0, _⟩ => rfl | ⟨1, _⟩ => rfl)))
    have e : lidx_main_v68 (ix2 r l) (lo k) = ix2 r (lo k) :=
      funext fun a => Fin.ext (by match a with | ⟨0, _⟩ => rfl | ⟨1, _⟩ => rfl)
    rw [e]; unfold val_main_v66
    exact Cert.LibConcatDot.concat_left 10000 128 256 rfl x1 (val_main_v34 (F := Ideal) x0 x10 x11) _ r k (lo k) rfl
  · rw [val_main_v67_apply]
    refine congr (congrArg HMul.hMul ?_) (congrArg x4 (funext fun a => Fin.ext (by match a with | ⟨0, _⟩ => rfl | ⟨1, _⟩ => rfl)))
    have e : lidx_main_v68 (ix2 r l) (hi k) = ix2 r (hi k) :=
      funext fun a => Fin.ext (by match a with | ⟨0, _⟩ => rfl | ⟨1, _⟩ => rfl)
    rw [e]; unfold val_main_v66
    exact Cert.LibConcatDot.concat_right 10000 128 256 rfl x1 (val_main_v34 (F := Ideal) x0 x10 x11) _ r k (hi k) rfl
  · exact congrArg x5 (funext fun a => Fin.ext (by match a with | ⟨0, _⟩ => rfl))

/-- The cut-off row r. -/
abbrev act (r : Fin 10000) : Fin 128 → EReal :=
  fun l => cut (lin (own x1 r) (nbr x0 x10 x11 r) (wt x4) (fun j => x5 (ix1 j)) l)

/-- Entry (r, l) after the cut-off. -/
theorem cut_apply (r : Fin 10000) (l : Fin 128) :
    val_main_v72 (F := Ideal) x0 x1 x4 x5 x10 x11 (ix2 r l) = act x0 x1 x4 x5 x10 x11 r l := by
  rw [val_main_v72_apply, val_main_call3_v0_apply, val_main_call3_cst_apply, lin_apply, Ideal.maximumf_def, Ideal.ofBits_def]
  rfl

/-- The column of row means at row r: the host's sum starts from 0 and adds the row's 128 entries. -/
theorem mean_apply (r : Fin 10000) (u : Fin 1) :
    val_main_v76 (F := Ideal) x0 x1 x4 x5 x10 x11 (ix2 r u) = mean (act x0 x1 x4 x5 x10 x11 r) := by
  rw [val_main_v76_apply, val_main_v74_apply, val_main_v73_apply, val_main_v75_apply, val_main_cst_15_apply, val_main_cst_14_apply]
  simp only [Ideal.hostDivf_def, Ideal.ofBits_def, Ideal.ofBits_zero_f32, zero_add]
  unfold mean
  refine congrArg (Ideal.div · _) (Finset.sum_congr rfl fun k _ => ?_)
  have e : idx_main_v73 (idx_main_v74 (ix2 r u)) k = ix2 r k :=
    funext fun a => Fin.ext (by match a with | ⟨0, _⟩ => rfl | ⟨1, _⟩ => rfl)
  rw [e]
  exact cut_apply x0 x1 x4 x5 x10 x11 r k

/-- The row centred on its mean (the copy the variance is taken of). -/
theorem centred_apply (r : Fin 10000) (l : Fin 128) :
    val_main_v78 (F := Ideal) x0 x1 x4 x5 x10 x11 (ix2 r l)
      = act x0 x1 x4 x5 x10 x11 r l - mean (act x0 x1 x4 x5 x10 x11 r) := by
  have e : idx_main_v77 (ix2 r l) = ix2 r (0 : Fin 1) :=
    funext fun a => Fin.ext (by match a with | ⟨0, _⟩ => rfl | ⟨1, _⟩ => rfl)
  rw [val_main_v78_apply, val_main_v77_apply, Ideal.subf_def, cut_apply, e, mean_apply]

/-- The row centred on its mean (the copy that is scaled). -/
theorem centred'_apply (r : Fin 10000) (l : Fin 128) :
    val_main_v85 (F := Ideal) x0 x1 x4 x5 x10 x11 (ix2 r l)
      = act x0 x1 x4 x5 x10 x11 r l - mean (act x0 x1 x4 x5 x10 x11 r) := by
  have e : idx_main_v84 (ix2 r l) = ix2 r (0 : Fin 1) :=
    funext fun a => Fin.ext (by match a with | ⟨0, _⟩ => rfl | ⟨1, _⟩ => rfl)
  rw [val_main_v85_apply, val_main_v84_apply, Ideal.subf_def, cut_apply, e, mean_apply]

/-- The column of row variances at row r. -/
theorem var_apply (r : Fin 10000) (u : Fin 1) :
    val_main_v83 (F := Ideal) x0 x1 x4 x5 x10 x11 (ix2 r u)
      = mean (fun l => (act x0 x1 x4 x5 x10 x11 r l - mean (act x0 x1 x4 x5 x10 x11 r))
          * (act x0 x1 x4 x5 x10 x11 r l - mean (act x0 x1 x4 x5 x10 x11 r))) := by
  rw [val_main_v83_apply, val_main_v81_apply, val_main_v80_apply, val_main_v82_apply, val_main_cst_17_apply, val_main_cst_16_apply]
  simp only [Ideal.hostDivf_def, Ideal.ofBits_def, Ideal.ofBits_zero_f32, zero_add]
  show Ideal.div _ _ = Ideal.div _ _
  refine congrArg (Ideal.div · _) (Finset.sum_congr rfl fun k _ => ?_)
  have e : idx_main_v80 (idx_main_v81 (ix2 r u)) k = ix2 r k :=
    funext fun a => Fin.ext (by match a with | ⟨0, _⟩ => rfl | ⟨1, _⟩ => rfl)
  rw [e, val_main_v79_apply, Ideal.mulf_def, centred_apply]

/-- THE REFERENCE'S SECOND RESULT, entry by entry. -/
theorem result_apply (r : Fin 10000) (q : Fin 128) :
    val_main_v96 (F := Ideal) x0 x1 x4 x5 x8 x9 x10 x11 (ix2 r q)
      = row (own x1 r) (nbr x0 x10 x11 r) (wt x4) (fun j => x5 (ix1 j)) (fun j => x8 (ix1 j)) (fun j => x9 (ix1 j)) q := by
  have e58 : idx_main_v89 (ix2 r q) = ix2 r (0 : Fin 1) :=
    funext fun a => Fin.ext (by match a with | ⟨0, _⟩ => rfl | ⟨1, _⟩ => rfl)
  have e6 : idx_main_v91 (idx_main_v92 (ix2 r q)) = ix1 q :=
    funext fun a => Fin.ext (by match a with | ⟨0, _⟩ => rfl)
  have e7 : idx_main_v94 (idx_main_v95 (ix2 r q)) = ix1 q :=
    funext fun a => Fin.ext (by match a with | ⟨0, _⟩ => rfl)
  rw [val_main_v96_apply, val_main_v93_apply, val_main_v90_apply, val_main_v89_apply, val_main_v88_apply, val_main_v87_apply,
    val_main_v86_apply, val_main_cst_18_apply, val_main_v92_apply, val_main_v91_apply, val_main_v95_apply, val_main_v94_apply,
    e58, e6, e7, centred'_apply, var_apply]
  simp only [Ideal.addf_def, Ideal.mulf_def, Ideal.hostUnary_rsqrt_def, Ideal.ofBits_def]
  rfl

end Cert.ReferenceIdeal.MachRow

end
-- ==== Proof.lean ====
/-
  Two fused kernels for a bipartite neighbourhood-averaging layer against its plain reference, on the extended reals.

  Both programs first average, for every job, the feature rows of the machines it is linked to, and for every machine the
  rows of its jobs (gather, scatter-add, a count clipped below at 1, a quotient) — the same host operations in the same
  order, so the two programs hold the same arrays there. The reference then lays own features and neighbour means side by
  side, multiplies by the transposed 128 × 256 weight, adds the bias, cuts off at 0 and normalises each row; the kernel
  program does the same 2000 rows at a time, with the weight cut into its two transposed 128-column halves, so its
  product is two sums of 128 terms where the reference has one of 256: the one sum split at 128 (Spec.lean,
  `sum_halves`), a regrouping that needs nothing finite. Everything after the product is the same chain of operations
  on both sides, entry by entry. Each result array of the kernel program is therefore the layer's row function of the
  arguments at every index (JobBlocks.lean, MachBlocks.lean: what a grid point writes back is a block of that function,
  and the blocks tile the array), and so is the reference's (RefJob.lean, RefMach.lean).
  The idealisation rewrote no operation, so the word-level kernel's sanctioned idealisation claim is empty.
-/
import proofs.«103226_j88527865905575_1_alg».proof.Defs
import proofs.«103226_j88527865905575_1_alg».proof.Proof.Gen.Kernel
import proofs.«103226_j88527865905575_1_alg».proof.Proof.Gen.Kernel.Skeleton
import proofs.«103226_j88527865905575_1_alg».proof.Proof.Gen.Kernel.Launch
import proofs.«103226_j88527865905575_1_alg».proof.Proof.Gen.Kernel.Points
import proofs.«103226_j88527865905575_1_alg».proof.Proof.Gen.Kernel.Frame
import proofs.«103226_j88527865905575_1_alg».proof.Proof.Gen.KernelIdeal
import proofs.«103226_j88527865905575_1_alg».proof.Proof.Gen.KernelIdeal.Skeleton
import proofs.«103226_j88527865905575_1_alg».proof.Proof.Gen.KernelIdeal.Launch
import proofs.«103226_j88527865905575_1_alg».proof.Proof.Gen.KernelIdeal.Points
import proofs.«103226_j88527865905575_1_alg».proof.Proof.Gen.KernelIdeal.Frame
import proofs.«103226_j88527865905575_1_alg».proof.Proof.Gen.ReferenceIdeal
import proofs.«103226_j88527865905575_1_alg».proof.Proof.Gen.Pre_finite_inputs
import proofs.«103226_j88527865905575_1_alg».proof.Proof.Gen.ReferenceIdeal.Run
import proofs.«103226_j88527865905575_1_alg».proof.Proof.Gen.ReferenceIdeal.Read
import proofs.«103226_j88527865905575_1_alg».proof.Proof.Run
import proofs.«103226_j88527865905575_1_alg».proof.Proof.EntryJob
import proofs.«103226_j88527865905575_1_alg».proof.Proof.EntryMach
import proofs.«103226_j88527865905575_1_alg».proof.Proof.JobBlocks
import proofs.«103226_j88527865905575_1_alg».proof.Proof.MachBlocks
import proofs.«103226_j88527865905575_1_alg».proof.Proof.RefJob
import proofs.«103226_j88527865905575_1_alg».proof.Proof.RefMach
import Idealize.ShloMosaic.Adequacy
import Idealize.ShloMosaic.Init

noncomputable section

namespace Cert.Proof

open Idealize.ShloMosaic Idealize.ShloMosaic.TcCoe Idealize.SL.Sem Idealize.ShloMosaic.ValueIdx

section Claims

/-- The first result array as a function of the kernel program's arguments. -/
abbrev jobResult (m : (ℓ : Loc Cert.KernelIdeal.nD Cert.KernelIdeal.τ Cert.KernelIdeal.sig) → Buf (Elt Ideal) ℓ) (c : Dev Cert.KernelIdeal.nD) :
    Cert.KernelIdeal.S100000x128.Idx → EReal :=
  Cert.KernelIdeal.JobBlocks.result (m ((c.tc : Thread Cert.KernelIdeal.nD Cert.KernelIdeal.τ).loc Cert.KernelIdeal.main_arg0))
    (Cert.ReferenceIdeal.Read.val_main_v17 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- The second result array as a function of the kernel program's arguments. -/
abbrev machResult (m : (ℓ : Loc Cert.KernelIdeal.nD Cert.KernelIdeal.τ Cert.KernelIdeal.sig) → Buf (Elt Ideal) ℓ) (c : Dev Cert.KernelIdeal.nD) :
    Cert.KernelIdeal.S10000x128.Idx → EReal :=
  Cert.KernelIdeal.MachBlocks.result (m ((c.tc : Thread Cert.KernelIdeal.nD Cert.KernelIdeal.τ).loc Cert.KernelIdeal.main_arg1))
    (Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- What the first kernel's write-backs leave is the first result function of the arguments. -/
theorem kernel_job (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.dat0 (Cert.KernelIdeal.Gen.V5 m ρ) c).arrAt 7 Cert.KernelIdeal.cfg0.N = jobResult m c := by
  refine (Cert.KernelIdeal.JobBlocks.final (Cert.KernelIdeal.Gen.V5 m ρ) c (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (Cert.KernelIdeal.EntryJob.w1 m ρ c) (Cert.KernelIdeal.EntryJob.w2 m ρ c) (Cert.KernelIdeal.EntryJob.bias m ρ c) (Cert.KernelIdeal.EntryJob.scale m ρ c) (Cert.KernelIdeal.EntryJob.shift m ρ c)).trans ?_
  rw [Cert.KernelIdeal.EntryJob.own m ρ c, Cert.KernelIdeal.EntryJob.nbr m ρ c]

/-- What the second kernel's write-backs leave is the second result function of the arguments. -/
theorem kernel_mach (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.dat1 (Cert.KernelIdeal.Gen.V7 m ρ) c).arrAt 7 Cert.KernelIdeal.cfg1.N = machResult m c := by
  refine (Cert.KernelIdeal.MachBlocks.final (Cert.KernelIdeal.Gen.V7 m ρ) c (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (Cert.KernelIdeal.EntryMach.w1 m ρ c) (Cert.KernelIdeal.EntryMach.w2 m ρ c) (Cert.KernelIdeal.EntryMach.bias m ρ c) (Cert.KernelIdeal.EntryMach.scale m ρ c) (Cert.KernelIdeal.EntryMach.shift m ρ c)).trans ?_
  rw [Cert.KernelIdeal.EntryMach.own m ρ c, Cert.KernelIdeal.EntryMach.nbr m ρ c]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The reference's first result is the job-side row function of arguments that agree with the kernel program's. -/
theorem ref_job (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (h7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7)))
    (h10 : m' ((c.tc : Thread Cert.ReferenceIdeal.nD Cert.ReferenceIdeal.τ).loc Cert.ReferenceIdeal.main_arg10) = (m ((c.tc : Thread Cert.KernelIdeal.nD Cert.KernelIdeal.τ).loc Cert.KernelIdeal.main_arg10)))
    (h11 : m' ((c.tc : Thread Cert.ReferenceIdeal.nD Cert.ReferenceIdeal.τ).loc Cert.ReferenceIdeal.main_arg11) = (m ((c.tc : Thread Cert.KernelIdeal.nD Cert.KernelIdeal.τ).loc Cert.KernelIdeal.main_arg11))) :
    Cert.ReferenceIdeal.Value.res_main_v65 m' c = jobResult m c := by
  rw [Cert.ReferenceIdeal.Read.val_main_v65_eq, h0, h1, h2, h3, h6, h7, h10, h11]
  funext i
  exact (congrArg _ (eq_ix2 i)).trans
    (Cert.ReferenceIdeal.JobRow.result_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1))

/-- The reference's second result is the machine-side row function of arguments that agree with the kernel program's. -/
theorem ref_mach (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h8 : m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8)))
    (h9 : m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9)))
    (h10 : m' ((c.tc : Thread Cert.ReferenceIdeal.nD Cert.ReferenceIdeal.τ).loc Cert.ReferenceIdeal.main_arg10) = (m ((c.tc : Thread Cert.KernelIdeal.nD Cert.KernelIdeal.τ).loc Cert.KernelIdeal.main_arg10)))
    (h11 : m' ((c.tc : Thread Cert.ReferenceIdeal.nD Cert.ReferenceIdeal.τ).loc Cert.ReferenceIdeal.main_arg11) = (m ((c.tc : Thread Cert.KernelIdeal.nD Cert.KernelIdeal.τ).loc Cert.KernelIdeal.main_arg11))) :
    Cert.ReferenceIdeal.Value.res_main_v96 m' c = machResult m c := by
  rw [Cert.ReferenceIdeal.Read.val_main_v96_eq, h0, h1, h4, h5, h8, h9, h10, h11]
  funext i
  exact (congrArg _ (eq_ix2 i)).trans
    (Cert.ReferenceIdeal.MachRow.result_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1))

/-- Both idealised programs run and end with the same two result arrays: the row function of the arguments, job side and
    machine side. -/
theorem algebraic : Cert.algebraic_KernelIdeal_ReferenceIdeal := by
  intro m ρ m' ρ' _ hagree
  refine ⟨fun c => jobResult m c, fun c => machResult m c, ?_, ?_⟩
  · exact (θ_run Cert.KernelIdeal.defs _ _).mono
      (fun r h c => ⟨(h c).1.trans (kernel_job m ρ c), (h c).2.1.trans (kernel_mach m ρ c), (h c).2.2⟩)
      (Cert.KernelIdeal.Outputs.run (F := Ideal) m ρ)
  · exact (θ_run Cert.ReferenceIdeal.defs _ _).mono
      (fun r h c => ⟨(h c).1.trans (ref_job m m' c (hagree c).1 (hagree c).2.1 (hagree c).2.2.1 (hagree c).2.2.2.1 (hagree c).2.2.2.2.2.2.1 (hagree c).2.2.2.2.2.2.2.1 (hagree c).2.2.2.2.2.2.2.2.2.2.1 (hagree c).2.2.2.2.2.2.2.2.2.2.2),
        (h c).2.1.trans (ref_mach m m' c (hagree c).1 (hagree c).2.1 (hagree c).2.2.2.2.1 (hagree c).2.2.2.2.2.1 (hagree c).2.2.2.2.2.2.2.2.1 (hagree c).2.2.2.2.2.2.2.2.2.1 (hagree c).2.2.2.2.2.2.2.2.2.2.1 (hagree c).2.2.2.2.2.2.2.2.2.2.2), (h c).2.2⟩)
      (Cert.ReferenceIdeal.Value.run (F := Ideal) m' ρ')

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
